-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1000000 : Shape := ⟨1, ![1000000]⟩
abbrev S100000x64 : Shape := ⟨2, ![100000, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : IVec S100000 32) (main_arg1 : IVec S1000000 32) (main_arg2 : IVec S1000000 32) (main_arg3 : FVec F S100000x64 .f32) (main_arg4 : FVec F S64x64 .f32) (main_arg5 : FVec F S64x1 .f32) (main_arg6 : FVec F S1 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x1 .f32 := Host.absf main_arg5
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S100000 : Shape := ⟨1, ![100000]⟩
abbrev S1000000 : Shape := ⟨1, ![1000000]⟩
abbrev S100000x64 : Shape := ⟨2, ![100000, 64]⟩
abbrev S64x64 : Shape := ⟨2, ![64, 64]⟩
abbrev S64x1 : Shape := ⟨2, ![64, 1]⟩
abbrev S1 : Shape := ⟨1, ![1]⟩
abbrev S_ : Shape := ⟨0, ![]⟩
abbrev S100000x1 : Shape := ⟨2, ![100000, 1]⟩
abbrev S1000000x1 : Shape := ⟨2, ![1000000, 1]⟩
abbrev S10000x64 : Shape := ⟨2, ![10000, 64]⟩
abbrev S10000x1 : Shape := ⟨2, ![10000, 1]⟩
abbrev S1000000x64 : Shape := ⟨2, ![1000000, 64]⟩
abbrev S64x128 : Shape := ⟨2, ![64, 128]⟩
abbrev S1x128 : Shape := ⟨2, ![1, 128]⟩
abbrev S1x1 : Shape := ⟨2, ![1, 1]⟩
abbrev S100000x128 : Shape := ⟨2, ![100000, 128]⟩
abbrev S10000x128 : Shape := ⟨2, ![10000, 128]⟩

abbrev nBuf : Space → Nat
  | .hbm => 84
  | .vmem => 15
  | .smem => 0
  | _ => 0

abbrev bufTy : (tb : Table) → Fin (tcTables nBuf tb) → BufTy
  | .hbm, ⟨0, _⟩ => ⟨S100000, .i32⟩
  | .hbm, ⟨1, _⟩ => ⟨S1000000, .i32⟩
  | .hbm, ⟨2, _⟩ => ⟨S1000000, .i32⟩
  | .hbm, ⟨3, _⟩ => ⟨S100000x64, .f32⟩
  | .hbm, ⟨4, _⟩ => ⟨S64x64, .f32⟩
  | .hbm, ⟨5, _⟩ => ⟨S64x1, .f32⟩
  | .hbm, ⟨6, _⟩ => ⟨S1, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000x64, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1000000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .f32⟩
  | .hbm, ⟨47, _⟩ => ⟨S100000x64, .f32⟩
  | .hbm, ⟨48, _⟩ => ⟨S1000000x1, .i32⟩
  | .hbm, ⟨49, _⟩ => ⟨S100000x64, .f32⟩
  | .hbm, ⟨50, _⟩ => ⟨S_, .f32⟩
  | .hbm, ⟨51, _⟩ => ⟨S64x128, .f32⟩
  | .hbm, ⟨52, _⟩ => ⟨S_, .i32⟩
  | .hbm, ⟨53, _⟩ => ⟨S1, .i32⟩
  | .hbm, ⟨54, _⟩ => ⟨S64x128, .f32⟩
  | .hbm, ⟨55, _⟩ => ⟨S_, .f32⟩
  | .hbm, ⟨56, _⟩ => ⟨S1x128, .f32⟩
  | .hbm, ⟨57, _⟩ => ⟨S1x1, .f32⟩
  | .hbm, ⟨58, _⟩ => ⟨S_, .i32⟩
  | .hbm, ⟨59, _⟩ => ⟨S1, .i32⟩
  | .hbm, ⟨60, _⟩ => ⟨S1x128, .f32⟩
  | .hbm, ⟨61, _⟩ => ⟨S100000x128, .f32⟩
  | .hbm, ⟨62, _⟩ => ⟨S100000x1, .f32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S1000000x1, .i32⟩
  | .hbm, ⟨71, _⟩ => ⟨S1000000x1, .f32⟩
  | .hbm, ⟨72, _⟩ => ⟨S_, .f32⟩
  | .hbm, ⟨73, _⟩ => ⟨S100000x1, .f32⟩
  | .hbm, ⟨74, _⟩ => ⟨S1000000x1, .i32⟩
  | .hbm, ⟨75, _⟩ => ⟨S100000x1, .f32⟩
  | .hbm, ⟨76, _⟩ => ⟨S100000x1, .f32⟩
  | .hbm, ⟨77, _⟩ => ⟨S100000x1, .f32⟩
  | .hbm, ⟨78, _⟩ => ⟨S_, .f32⟩
  | .hbm, ⟨79, _⟩ => ⟨S100000x1, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S64x128, .f32⟩
  | .local _ .vmem, ⟨12, _⟩ => ⟨S1x128, .f32⟩
  | .local _ .vmem, ⟨13, _⟩ => ⟨S10000x128, .f32⟩
  | .local _ .vmem, ⟨14, _⟩ => ⟨S10000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_c_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_c_11 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_12 : Ref sig .tc := ⟨.hbm, 63, rfl⟩
abbrev main_v42 : Ref sig .tc := ⟨.hbm, 64, rfl⟩
abbrev main_v43 : Ref sig .tc := ⟨.hbm, 65, rfl⟩
abbrev main_c_13 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  bcast_S_S64x128 : S_.BroadcastsInDim S64x128 (![] : Fin 0 → Fin S64x128.rank)
  bcast_S_S1 : S_.BroadcastsInDim S1 (![] : Fin 0 → Fin S1.rank)
  bcast_S_S1x128 : S_.BroadcastsInDim S1x128 (![] : Fin 0 → Fin S1x128.rank)
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  slices_S100000x128_S100000x1_0_0 : S100000x128.Slices ![0, 0] S100000x1
  bcast_S_S100000x1 : S_.BroadcastsInDim S100000x1 (![] : Fin 0 → Fin S100000x1.rank)
  gather_S100000x64_S100000x1_S100000x64_1_0_n_n_0_1_164_wf : GatherDims.WF S100000x64 S100000x1 S100000x64 [1] [0] [] [0] [] 1 ![1, 64]
  scatter_S100000_S1000000x1_S1000000_n_0_0_1_wf : ScatterDims.WF S100000 S1000000x1 S1000000 [] [0] [0] 1
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S64x128_S1_S64x1_01_n_1_0_wf : ScatterDims.WF S64x128 S1 S64x1 [0, 1] [] [1] 0
  scatter_S1x128_S1_S1x1_01_n_1_0_wf : ScatterDims.WF S1x128 S1 S1x1 [0, 1] [] [1] 0
  dot_S10000x64_S64x128_S10000x128_1_0_0_1_n_n_wf : DotDims.WF S10000x64 S64x128 S10000x128 [1] [0] [0] [1] [] []
  gather_S100000x1_S1000000x1_S1000000x1_1_0_n_n_0_1_11_wf : GatherDims.WF S100000x1 S1000000x1 S1000000x1 [1] [0] [] [0] [] 1 ![1, 1]
  scatter_S100000x1_S1000000x1_S1000000x1_1_0_0_1_wf : ScatterDims.WF S100000x1 S1000000x1 S1000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S64x128_S1_S64x1_01_n_1_0 : ScatterDims S64x128 S1 S64x1 where
  updateWindowDims := [0, 1]
  insertedWindowDims := []
  scatterDimsToOperandDims := [1]
  indexVectorDim := 0
  wf := scatter_S64x128_S1_S64x1_01_n_1_0_wf
def scatter_S1x128_S1_S1x1_01_n_1_0 : ScatterDims S1x128 S1 S1x1 where
  updateWindowDims := [0, 1]
  insertedWindowDims := []
  scatterDimsToOperandDims := [1]
  indexVectorDim := 0
  wf := scatter_S1x128_S1_S1x1_01_n_1_0_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000 : Shape := ⟨1, ![100000]⟩
abbrev S1000000 : Shape := ⟨1, ![1000000]⟩
abbrev S100000x64 : Shape := ⟨2, ![100000, 64]⟩
abbrev S64x64 : Shape := ⟨2, ![64, 64]⟩
abbrev S64x1 : Shape := ⟨2, ![64, 1]⟩
abbrev S1 : Shape := ⟨1, ![1]⟩
abbrev S_ : Shape := ⟨0, ![]⟩
abbrev S100000x1 : Shape := ⟨2, ![100000, 1]⟩
abbrev S1000000x1 : Shape := ⟨2, ![1000000, 1]⟩
abbrev S1000000x64 : Shape := ⟨2, ![1000000, 64]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1000000, .i32⟩
  | .hbm, ⟨2, _⟩ => ⟨S1000000, .i32⟩
  | .hbm, ⟨3, _⟩ => ⟨S100000x64, .f32⟩
  | .hbm, ⟨4, _⟩ => ⟨S64x64, .f32⟩
  | .hbm, ⟨5, _⟩ => ⟨S64x1, .f32⟩
  | .hbm, ⟨6, _⟩ => ⟨S1, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S100000x64, .f32⟩
  | .hbm, ⟨16, _⟩ => ⟨S100000x64, .f32⟩
  | .hbm, ⟨17, _⟩ => ⟨S_, .f32⟩
  | .hbm, ⟨18, _⟩ => ⟨S1000000, .f32⟩
  | .hbm, ⟨19, _⟩ => ⟨S_, .f32⟩
  | .hbm, ⟨20, _⟩ => ⟨S100000, .f32⟩
  | .hbm, ⟨21, _⟩ => ⟨S1000000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S1000000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S_, .f32⟩
  | .hbm, ⟨44, _⟩ => ⟨S100000x64, .f32⟩
  | .hbm, ⟨45, _⟩ => ⟨S1000000x1, .i32⟩
  | .hbm, ⟨46, _⟩ => ⟨S100000x64, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S_, .f32⟩
  | .hbm, ⟨56, _⟩ => ⟨S100000x64, .f32⟩
  | .hbm, ⟨57, _⟩ => ⟨S100000x64, .i1⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x1, .f32⟩
  | .hbm, ⟨63, _⟩ => ⟨S1x1, .f32⟩
  | .hbm, ⟨64, _⟩ => ⟨S100000x1, .f32⟩
  | .hbm, ⟨65, _⟩ => ⟨S100000x1, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x1, .f32⟩
  | .hbm, ⟨75, _⟩ => ⟨S_, .f32⟩
  | .hbm, ⟨76, _⟩ => ⟨S100000x1, .f32⟩
  | .hbm, ⟨77, _⟩ => ⟨S1000000x1, .i32⟩
  | .hbm, ⟨78, _⟩ => ⟨S100000x1, .f32⟩
  | .hbm, ⟨79, _⟩ => ⟨S100000x1, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S_, .f32⟩
  | .hbm, ⟨85, _⟩ => ⟨S100000x1, .f32⟩
  | .hbm, ⟨86, _⟩ => ⟨S100000x1, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S100000x1_S100000x64_1_0_n_n_0_1_164_wf : GatherDims.WF S100000x64 S100000x1 S100000x64 [1] [0] [] [0] [] 1 ![1, 64]
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x1_S100000x1_1_0_0_1_n_n_wf : DotDims.WF S100000x64 S64x1 S100000x1 [1] [0] [0] [1] [] []
  gather_S100000x1_S1000000x1_S1000000x1_1_0_n_n_0_1_11_wf : GatherDims.WF S100000x1 S1000000x1 S1000000x1 [1] [0] [] [0] [] 1 ![1, 1]
  scatter_S100000x1_S1000000x1_S1000000x1_1_0_0_1_wf : ScatterDims.WF S100000x1 S1000000x1 S1000000x1 [1] [0] [0] 1

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf

class Facts : Prop extends Facts₀ where

variable [Facts]
-- ==== Proof.KerRun.lean ====
/-
  The kernel program's run with its result named: every weakly fair execution of @main terminates and leaves in the
  result buffer what the fold of the program's five segments (three stretches of host operations around the two kernel
  regions) leaves there, the arguments unchanged.
-/
import proofs.«157491_j56882546868696_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v57) = W5 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v57 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.KerRun

end
-- ==== Proof.KerTerm.lean ====
/-
  The host stages of the kernel's program as terms of arrays: the same lookups, degree factors and sums over incoming
  edges as the reference's, the degree factors laid out as columns by a reshape, the second layer's weight column and
  bias written into column 0 of zero arrays 128 wide, the first column cut back out of the padded result, and the
  logistic finish.  Each stage is the printed host operations in the printed order.
-/
import proofs.«157491_j56882546868696_2_alg».proof.KernelIdeal

noncomputable section

namespace Cert.KernelIdeal.KerTerm

open Cert.KernelIdeal Idealize.ShloMosaic

variable {F : FTy → Type} [FloatOps F] [Facts]
open Facts₀ Facts

/-- Node ids as gather start indices: a negative id is moved up by the table's height, and the ids become a column. -/
def nodeIdx (a0 : (⟨S100000, .i32⟩ : BufTy).Contents (Elt F)) : (⟨S100000x1, .i32⟩ : BufTy).Contents (Elt F) :=
  broadcastInDim S100000x1 ![0] bcast_S100000_S100000x1_0
    (select (cmpi .slt a0 (broadcastInDim S100000 ![] bcast_S_S100000 (constantI S_ 32 0#32)))
      (addi a0 (broadcastInDim S100000 ![] bcast_S_S100000 (constantI S_ 32 100000#32))) a0)

/-- Edge endpoints as gather start indices, likewise. -/
def edgeIdx (a : (⟨S1000000, .i32⟩ : BufTy).Contents (Elt F)) : (⟨S1000000x1, .i32⟩ : BufTy).Contents (Elt F) :=
  broadcastInDim S1000000x1 ![0] bcast_S1000000_S1000000x1_0
    (select (cmpi .slt a (broadcastInDim S1000000 ![] bcast_S_S1000000 (constantI S_ 32 0#32)))
      (addi a (broadcastInDim S1000000 ![] bcast_S_S1000000 (constantI S_ 32 100000#32))) a)

/-- Edge endpoints as scatter indices: a column, unchanged. -/
def edgeCol (a : (⟨S1000000, .i32⟩ : BufTy).Contents (Elt F)) : (⟨S1000000x1, .i32⟩ : BufTy).Contents (Elt F) :=
  broadcastInDim S1000000x1 ![0] bcast_S1000000_S1000000x1_0 a

/-- The embedding rows of the node ids. -/
def embed (a3 : (⟨S100000x64, .f32⟩ : BufTy).Contents (Elt F)) (a0 : (⟨S100000, .i32⟩ : BufTy).Contents (Elt F)) :
    (⟨S100000x64, .f32⟩ : BufTy).Contents (Elt F) :=
  Host.gather gather_S100000x64_S100000x1_S100000x64_1_0_n_n_0_1_164 a3 (nodeIdx a0)

/-- How many edges name each node at the given endpoint, at least one, to the power -1/2. -/
def invDeg (a : (⟨S1000000, .i32⟩ : BufTy).Contents (Elt F)) : (⟨S100000, .f32⟩ : BufTy).Contents (Elt F) :=
  Host.rsqrt (maximumf
    (Host.scatterAdd scatter_S100000_S1000000x1_S1000000_n_0_0_1
      (broadcastInDim S100000 ![] bcast_S_S100000 (constant S_ .f32 0x00000000#32)) (edgeCol a)
      (broadcastInDim S1000000 ![] bcast_S_S1000000 (constant S_ .f32 0x3F800000#32)))
    (broadcastInDim S100000 ![] bcast_S_S100000 (constant S_ .f32 0x3F800000#32)))

/-- That vector as a column. -/
def invDegCol (a : (⟨S1000000, .i32⟩ : BufTy).Contents (Elt F)) : (⟨S100000x1, .f32⟩ : BufTy).Contents (Elt F) :=
  shapeCast S100000x1 (invDeg a) shapeCasts_S100000_S100000x1

/-- Every node's sum over its incoming edges of the sender's row (64 features). -/
def sumIn64 (a1 a2 : (⟨S1000000, .i32⟩ : BufTy).Contents (Elt F)) (y : (⟨S100000x64, .f32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant S_ .f32 0x00000000#32)) (edgeCol a2)
    (Host.gather gather_S100000x64_S1000000x1_S1000000x64_1_0_n_n_0_1_164 y (edgeIdx a1))

/-- The second layer's weight column written into column 0 of a zero array 128 wide. -/
def w2pad (a5 : (⟨S64x1, .f32⟩ : BufTy).Contents (Elt F)) : (⟨S64x128, .f32⟩ : BufTy).Contents (Elt F) :=
  Host.scatter scatter_S64x128_S1_S64x1_01_n_1_0 (fun _ b => b)
    (broadcastInDim S64x128 ![] bcast_S_S64x128 (constant S_ .f32 0x00000000#32))
    (broadcastInDim S1 ![] bcast_S_S1 (constantI S_ 32 0#32)) a5

/-- The second layer's bias written into column 0 of a zero row 128 wide. -/
def b2pad (a6 : (⟨S1, .f32⟩ : BufTy).Contents (Elt F)) : (⟨S1x128, .f32⟩ : BufTy).Contents (Elt F) :=
  Host.scatter scatter_S1x128_S1_S1x1_01_n_1_0 (fun _ b => b)
    (broadcastInDim S1x128 ![] bcast_S_S1x128 (constant S_ .f32 0x00000000#32))
    (broadcastInDim S1 ![] bcast_S_S1 (constantI S_ 32 0#32)) (shapeCast S1x1 a6 shapeCasts_S1_S1x1)

/-- Column 0 of the padded second layer. -/
def col0 (r : (⟨S100000x128, .f32⟩ : BufTy).Contents (Elt F)) : (⟨S100000x1, .f32⟩ : BufTy).Contents (Elt F) :=
  extractStridedSlice S100000x1 ![0, 0] r slices_S100000x128_S100000x1_0_0

/-- Every node's sum over its incoming edges of the sender's value, through the logistic function 1 / (1 + exp (-x)). -/
def finish (a1 a2 : (⟨S1000000, .i32⟩ : BufTy).Contents (Elt F)) (p : (⟨S100000x1, .f32⟩ : BufTy).Contents (Elt F)) :
    (⟨S100000x1, .f32⟩ : BufTy).Contents (Elt F) :=
  Host.divf (broadcastInDim S100000x1 ![] bcast_S_S100000x1 (constant S_ .f32 0x3F800000#32))
    (addf (broadcastInDim S100000x1 ![] bcast_S_S100000x1 (constant S_ .f32 0x3F800000#32))
      (Host.exp (Host.negf
        (Host.scatterAdd scatter_S100000x1_S1000000x1_S1000000x1_1_0_0_1
          (broadcastInDim S100000x1 ![] bcast_S_S100000x1 (constant S_ .f32 0x00000000#32)) (edgeCol a2)
          (Host.gather gather_S100000x1_S1000000x1_S1000000x1_1_0_n_n_0_1_11 p (edgeIdx a1))))))

end Cert.KernelIdeal.KerTerm

end
-- ==== Proof.KerReads.lean ====
/-
  What the kernel program's buffers hold at each boundary between its segments, as terms of the argument arrays: the
  arrays the first kernel region reads (the embedding rows, the first weight matrix, the senders' degree column), the
  arrays the second region reads (the sum over incoming edges of the first region's result, the receivers' degree column,
  the padded second weight matrix and bias), and the result after the last stretch (the logistic finish of column 0 of
  the second region's result).
-/
import proofs.«157491_j56882546868696_2_alg».proof.Proof.Gen.KernelIdeal.Frame
import proofs.«157491_j56882546868696_2_alg».proof.Proof.KerTerm
import Idealize.ShloMosaic.Lib.StableHlo.Run

set_option maxRecDepth 16384

noncomputable section

namespace Cert.KernelIdeal.KerReads

open Cert.KernelIdeal Cert.KernelIdeal.Gen Cert.KernelIdeal.KerTerm
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first stretch, from the launch memory -/

/-- At the first region's entry: the gathered embedding rows. -/
theorem W1_v6 (c : Dev nD) : W1 m ρ c (Proc.devRef .tc main_v6)
    = embed (m ((c.tc : Thread nD τ).loc main_arg3)) (m ((c.tc : Thread nD τ).loc main_arg0)) := by
  unfold embed nodeIdx
  show after hostOps0 (W0 m ρ c) (Proc.devRef .tc main_v6) = _
  after_results

/-- The senders' degree factors as a column. -/
theorem W1_v17 (c : Dev nD) : W1 m ρ c (Proc.devRef .tc main_v17) = invDegCol (m ((c.tc : Thread nD τ).loc main_arg1)) := by
  unfold invDegCol invDeg edgeCol
  show after hostOps0 (W0 m ρ c) (Proc.devRef .tc main_v17) = _
  after_results
  rfl

/-- The receivers' degree factors as a column. -/
theorem W1_v21 (c : Dev nD) : W1 m ρ c (Proc.devRef .tc main_v21) = invDegCol (m ((c.tc : Thread nD τ).loc main_arg2)) := by
  unfold invDegCol invDeg edgeCol
  show after hostOps0 (W0 m ρ c) (Proc.devRef .tc main_v21) = _
  after_results
  rfl

/-- The first stretch writes no argument. -/
theorem W1_arg1 (c : Dev nD) : W1 m ρ c (Proc.devRef .tc main_arg1) = m ((c.tc : Thread nD τ).loc main_arg1) := by
  show after hostOps0 (W0 m ρ c) (Proc.devRef .tc main_arg1) = _
  after_results
theorem W1_arg2 (c : Dev nD) : W1 m ρ c (Proc.devRef .tc main_arg2) = m ((c.tc : Thread nD τ).loc main_arg2) := by
  show after hostOps0 (W0 m ρ c) (Proc.devRef .tc main_arg2) = _
  after_results
theorem W1_arg4 (c : Dev nD) : W1 m ρ c (Proc.devRef .tc main_arg4) = m ((c.tc : Thread nD τ).loc main_arg4) := by
  show after hostOps0 (W0 m ρ c) (Proc.devRef .tc main_arg4) = _
  after_results
theorem W1_arg5 (c : Dev nD) : W1 m ρ c (Proc.devRef .tc main_arg5) = m ((c.tc : Thread nD τ).loc main_arg5) := by
  show after hostOps0 (W0 m ρ c) (Proc.devRef .tc main_arg5) = _
  after_results
theorem W1_arg6 (c : Dev nD) : W1 m ρ c (Proc.devRef .tc main_arg6) = m ((c.tc : Thread nD τ).loc main_arg6) := by
  show after hostOps0 (W0 m ρ c) (Proc.devRef .tc main_arg6) = _
  after_results

/-! ## Across the first region: only its result array changes -/

theorem W2_arg1 (c : Dev nD) : W2 m ρ c (Proc.devRef .tc main_arg1) = m ((c.tc : Thread nD τ).loc main_arg1) :=
  (W2_of_ne m ρ c main_arg1 (by decide)).trans (W1_arg1 m ρ c)
theorem W2_arg2 (c : Dev nD) : W2 m ρ c (Proc.devRef .tc main_arg2) = m ((c.tc : Thread nD τ).loc main_arg2) :=
  (W2_of_ne m ρ c main_arg2 (by decide)).trans (W1_arg2 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_v21 (c : Dev nD) : W2 m ρ c (Proc.devRef .tc main_v21) = invDegCol (m ((c.tc : Thread nD τ).loc main_arg2)) :=
  (W2_of_ne m ρ c main_v21 (by decide)).trans (W1_v21 m ρ c)
/-- The first region's result array after its write-backs. -/
theorem W2_v22 (c : Dev nD) : W2 m ρ c (Proc.devRef .tc main_v22) = (dat0 (V1 m ρ) c).arrAt 3 cfg0.N :=
  W2_arr m ρ c 3

/-! ## The second stretch -/

/-- At the second region's entry: the sum over incoming edges of the first region's result. -/
theorem W3_v32 (c : Dev nD) : W3 m ρ c (Proc.devRef .tc main_v32)
    = sumIn64 (m ((c.tc : Thread nD τ).loc main_arg1)) (m ((c.tc : Thread nD τ).loc main_arg2)) ((dat0 (V1 m ρ) c).arrAt 3 cfg0.N) := by
  rw [← W2_arg1 m ρ c, ← W2_arg2 m ρ c, ← W2_v22 m ρ c]
  unfold sumIn64 edgeCol edgeIdx
  show after hostOps1 (W2 m ρ c) (Proc.devRef .tc main_v32) = _
  after_results

/-- The padded second weight matrix. -/
theorem W3_v35 (c : Dev nD) : W3 m ρ c (Proc.devRef .tc main_v35) = w2pad (m ((c.tc : Thread nD τ).loc main_arg5)) := by
  rw [← W2_arg5 m ρ c]
  unfold w2pad
  show after hostOps1 (W2 m ρ c) (Proc.devRef .tc main_v35) = _
  after_results

/-- The padded bias row. -/
theorem W3_v39 (c : Dev nD) : W3 m ρ c (Proc.devRef .tc main_v39) = b2pad (m ((c.tc : Thread nD τ).loc main_arg6)) := by
  rw [← W2_arg6 m ρ c]
  unfold b2pad
  show after hostOps1 (W2 m ρ c) (Proc.devRef .tc main_v39) = _
  after_results
  rfl

/-- The receivers' degree column, untouched by the second stretch. -/
theorem W3_v21 (c : Dev nD) : W3 m ρ c (Proc.devRef .tc main_v21) = invDegCol (m ((c.tc : Thread nD τ).loc main_arg2)) := by
  rw [← W2_v21 m ρ c]
  show after hostOps1 (W2 m ρ c) (Proc.devRef .tc main_v21) = _
  after_results

theorem W3_arg1 (c : Dev nD) : W3 m ρ c (Proc.devRef .tc main_arg1) = m ((c.tc : Thread nD τ).loc main_arg1) := by
  rw [← W2_arg1 m ρ c]
  show after hostOps1 (W2 m ρ c) (Proc.devRef .tc main_arg1) = _
  after_results
theorem W3_arg2 (c : Dev nD) : W3 m ρ c (Proc.devRef .tc main_arg2) = m ((c.tc : Thread nD τ).loc main_arg2) := by
  rw [← W2_arg2 m ρ c]
  show after hostOps1 (W2 m ρ c) (Proc.devRef .tc main_arg2) = _
  after_results

/-! ## Across the second region, and the last stretch -/

theorem W4_arg1 (c : Dev nD) : W4 m ρ c (Proc.devRef .tc main_arg1) = m ((c.tc : Thread nD τ).loc main_arg1) :=
  (W4_of_ne m ρ c main_arg1 (by decide)).trans (W3_arg1 m ρ c)
theorem W4_arg2 (c : Dev nD) : W4 m ρ c (Proc.devRef .tc main_arg2) = m ((c.tc : Thread nD τ).loc main_arg2) :=
  (W4_of_ne m ρ c main_arg2 (by decide)).trans (W3_arg2 m ρ c)
/-- The second region's result array after its write-backs. -/
theorem W4_v40 (c : Dev nD) : W4 m ρ c (Proc.devRef .tc main_v40) = (dat1 (V3 m ρ) c).arrAt 4 cfg1.N :=
  W4_arr m ρ c 4

set_option maxHeartbeats 2000000 in
/-- The last stretch over any contents at its start: the logistic finish of column 0 of the second region's array. -/
theorem last_v57 (U : Valuation τ sig (Elt F)) : after hostOps2 U (Proc.devRef .tc main_v57)
    = finish (U (Proc.devRef .tc main_arg1)) (U (Proc.devRef .tc main_arg2)) (col0 (U (Proc.devRef .tc main_v40))) := by
  unfold finish col0 edgeCol edgeIdx
  after_results_simp

/-- The program's result: the logistic finish of column 0 of the second region's result. -/
theorem W5_v57 (c : Dev nD) : W5 m ρ c (Proc.devRef .tc main_v57)
    = finish (m ((c.tc : Thread nD τ).loc main_arg1)) (m ((c.tc : Thread nD τ).loc main_arg2)) (col0 ((dat1 (V3 m ρ) c).arrAt 4 cfg1.N)) := by
  rw [← W4_arg1 m ρ c, ← W4_arg2 m ρ c, ← W4_v40 m ρ c]
  exact last_v57 (W4 m ρ c)

end Cert.KernelIdeal.KerReads

end
-- ==== Proof.Spec.lean ====
/-
  The two dense stages of the graph network as functions of whole arrays, index by index, over the extended reals.
  First stage: row p of the node features times the weight matrix, every entry of the row scaled by the row's factor:
  (sum over k of X[p,k] * W[k,q]) * col[p,0].  Second stage: the aggregated features scaled by the row's factor, passed
  through the leaky rectifier, times the (padded) second weight matrix, plus the (padded) bias row:
  (sum over k of lk (A[p,k] * col[p,0]) * Wp[k,q]) + bp[0,q].  A vector laid out as a column is colOf.
-/
import Idealize.ShloMosaic.Lib.ValueIdx
import Idealize.ShloMosaic.PureOps.Ideal.Laws

noncomputable section

namespace Cert.Gcn

open Idealize.ShloMosaic Idealize.ShloMosaic.ValueIdx
open scoped BigOperators

/-- The leaky rectifier on one extended real: the number itself where it compares at least zero, otherwise the number
    times the slope (the binary32 word nearest 0.01). -/
def lk (z : EReal) : EReal :=
  Scalar.select (FloatOps.cmpf (F := Ideal) (φ := .f32) .oge z (Ideal.ofBits .f32 0x00000000#32)) z
    (z * Ideal.ofBits .f32 0x3C23D70A#32)

/-- A vector of length n as a column [n, 1]. -/
def colOf {n : Nat} (v : (⟨1, ![n]⟩ : Shape).Idx → EReal) : (⟨2, ![n, 1]⟩ : Shape).Idx → EReal :=
  fun i => v (ix1 (n := n) (i 0))

/-- The first dense stage at row p, column q. -/
def dense1At {n : Nat} (X : (⟨2, ![n, 64]⟩ : Shape).Idx → EReal) (W : (⟨2, ![64, 64]⟩ : Shape).Idx → EReal)
    (col : (⟨2, ![n, 1]⟩ : Shape).Idx → EReal) (p : Fin n) (q : Fin 64) : EReal :=
  (∑ k : Fin 64, X (ix2 p k) * W (ix2 k q)) * col (ix2 p (0 : Fin 1))

/-- The first dense stage as a whole array. -/
def dense1 {n : Nat} (X : (⟨2, ![n, 64]⟩ : Shape).Idx → EReal) (W : (⟨2, ![64, 64]⟩ : Shape).Idx → EReal)
    (col : (⟨2, ![n, 1]⟩ : Shape).Idx → EReal) : (⟨2, ![n, 64]⟩ : Shape).Idx → EReal :=
  fun i => dense1At X W col (i 0) (i 1)

/-- The second dense stage at row p, column q of the padded result. -/
def dense2At {n c : Nat} (A : (⟨2, ![n, 64]⟩ : Shape).Idx → EReal) (col : (⟨2, ![n, 1]⟩ : Shape).Idx → EReal)
    (Wp : (⟨2, ![64, c]⟩ : Shape).Idx → EReal) (bp : (⟨2, ![1, c]⟩ : Shape).Idx → EReal) (p : Fin n) (q : Fin c) : EReal :=
  (∑ k : Fin 64, lk (A (ix2 p k) * col (ix2 p (0 : Fin 1))) * Wp (ix2 k q)) + bp (ix2 (0 : Fin 1) q)

/-- The second dense stage as a whole array. -/
def dense2 {n c : Nat} (A : (⟨2, ![n, 64]⟩ : Shape).Idx → EReal) (col : (⟨2, ![n, 1]⟩ : Shape).Idx → EReal)
    (Wp : (⟨2, ![64, c]⟩ : Shape).Idx → EReal) (bp : (⟨2, ![1, c]⟩ : Shape).Idx → EReal) :
    (⟨2, ![n, c]⟩ : Shape).Idx → EReal :=
  fun i => dense2At A col Wp bp (i 0) (i 1)

theorem dense1_ix2 {n : Nat} (X : (⟨2, ![n, 64]⟩ : Shape).Idx → EReal) (W : (⟨2, ![64, 64]⟩ : Shape).Idx → EReal)
    (col : (⟨2, ![n, 1]⟩ : Shape).Idx → EReal) (p : Fin n) (q : Fin 64) :
    dense1 X W col (ix2 p q) = dense1At X W col p q := rfl

theorem dense2_ix2 {n c : Nat} (A : (⟨2, ![n, 64]⟩ : Shape).Idx → EReal) (col : (⟨2, ![n, 1]⟩ : Shape).Idx → EReal)
    (Wp : (⟨2, ![64, c]⟩ : Shape).Idx → EReal) (bp : (⟨2, ![1, c]⟩ : Shape).Idx → EReal) (p : Fin n) (q : Fin c) :
    dense2 A col Wp bp (ix2 p q) = dense2At A col Wp bp p q := rfl

theorem colOf_ix2 {n : Nat} (v : (⟨1, ![n]⟩ : Shape).Idx → EReal) (p : Fin n) (u : Fin 1) :
    colOf v (ix2 p u) = v (ix1 p) := rfl

end Cert.Gcn

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.PayloadAt.lean ====
/-
  The two kernel bodies' stored values read at row p, column q, over the extended reals. The first body stores the product
  of the node features with the weight matrix, every row scaled by the row's factor: the first dense stage. The second body
  scales each row of the aggregated features by the row's factor, applies the leaky rectifier, multiplies by the padded
  second weight matrix and adds the padded bias row: the second dense stage.
-/
import proofs.«157491_j56882546868696_2_alg».proof.Proof.Gen.KernelIdeal.Skeleton
import proofs.«157491_j56882546868696_2_alg».proof.Proof.Spec
import proofs.«157491_j56882546868696_2_alg».proof.Proof.LibDenseRows
import proofs.«157491_j56882546868696_2_alg».proof.Proof.LibColumnLayout
import Idealize.ShloMosaic.Lib.ValueLayout

noncomputable section

namespace Cert.KernelIdeal.PayloadAt

open Cert.KernelIdeal Cert.KernelIdeal.Gen Idealize.ShloMosaic Idealize.ShloMosaic.ValueIdx Cert.Gcn
open scoped BigOperators

/-- The first body's stored value at (p, q): the sum over k of X[p,k] * W[k,q], times the column's entry of row p. -/
theorem pay0_apply (x0 : Vec Ideal S10000x64 .f32) (x1 : Vec Ideal S64x64 .f32) (x2 : Vec Ideal S10000x1 .f32)
    (p : Fin 10000) (q : Fin 64) :
    k0_pay1 x0 x1 x2 (ix2 p q) = dense1At x0 x1 x2 p q := by
  unfold k0_pay1 dense1At
  rw [shapeCast_self, shapeCast_self]
  refine (mulf_apply _ _ _).trans ?_
  refine congrArg₂ (· * ·) ?_ ?_
  · exact Cert.DenseRows.matmul_zero_plain_apply dot_S10000x64_S64x64_S10000x64_1_0_0_1_n_n rfl rfl rfl rfl
      (fun _ _ => rfl) (fun _ _ => rfl) x0 x1 p q
  · exact Cert.ColumnLayout.broadcastTo_a1_ab_apply x2 _ p q

/-- Comparing with zero, multiplying by the slope and selecting, at an index, is the leaky rectifier of the entry there. -/
theorem leaky_at {s : Shape} (v : FVec Ideal s .f32) (i : s.Idx) :
    select (cmpf .oge v (broadcast s (Scalar.ofBits (F := Ideal) .f32 0x00000000#32))) v
      (mulf v (broadcast s (Scalar.ofBits (F := Ideal) .f32 0x3C23D70A#32))) i = lk (v i) := rfl

/-- The second body's stored value at (p, q): the sum over k of lk (A[p,k] * col[p,0]) * Wp[k,q], plus bp[0,q]. -/
theorem pay1_apply (x0 : Vec Ideal S10000x64 .f32) (x1 : Vec Ideal S10000x1 .f32) (x2 : Vec Ideal S64x128 .f32)
    (x3 : Vec Ideal S1x128 .f32) (p : Fin 10000) (q : Fin 128) :
    k1_pay1 x0 x1 x2 x3 (ix2 p q) = dense2At x0 x1 x2 x3 p q := by
  unfold k1_pay1 dense2At
  rw [shapeCast_self, shapeCast_self, shapeCast_self, shapeCast_self]
  refine (addf_apply _ _ _).trans ?_
  refine congrArg₂ (· + ·) ?_ ?_
  · refine (Cert.DenseRows.matmul_zero_plain_apply dot_S10000x64_S64x128_S10000x128_1_0_0_1_n_n rfl rfl rfl rfl
      (fun _ _ => rfl) (fun _ _ => rfl) _ x2 p q).trans ?_
    refine Finset.sum_congr rfl fun k _ => ?_
    refine congrArg (· * x2 (ix2 k q)) ?_
    refine (leaky_at _ (ix2 p k)).trans (congrArg lk ?_)
    refine (mulf_apply _ _ _).trans ?_
    exact congrArg (x0 (ix2 p k) * ·) (Cert.ColumnLayout.broadcastTo_a1_ab_apply x1 _ p k)
  · exact broadcastTo_1b_ab_apply x3 _ p q

end Cert.KernelIdeal.PayloadAt

end
-- ==== Proof.Region0.lean ====
/-
  The first kernel region's result array as one function of the arrays the region finds.  The grid has ten points;
  point t stages rows 10000 t … 10000 t + 9999 of the node features and of the degree column and the whole weight matrix,
  and writes back rows 10000 t … of the result.  The body's value at (p, q) of its block is the first dense stage of
  the staged blocks, so the block written back at point t is block t of the first dense stage of the whole arrays, and
  the ten blocks tile the result array.
-/
import proofs.«157491_j56882546868696_2_alg».proof.Proof.Gen.KernelIdeal.Frame
import proofs.«157491_j56882546868696_2_alg».proof.Proof.Spec
import proofs.«157491_j56882546868696_2_alg».proof.Proof.PayloadAt
import Idealize.ShloMosaic.Lib.Pipeline.Value
import Idealize.ShloMosaic.Lib.Tactic

set_option maxRecDepth 16384

noncomputable section

namespace Cert.KernelIdeal.Region0

open Cert.KernelIdeal Cert.KernelIdeal.Gen Cert.Gcn Cert.KernelIdeal.PayloadAt
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The block indices of the four windows at every grid point: the row-blocked windows move with the point, the weight
    matrix stays. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0 :=
  (by decide +kernel : ∀ t : Fin grid0.N, _)

/-- Row p of block t is a row of the array. -/
theorem row_lt (t : Fin cfg0.N) (p : Fin 10000) : t.val * 10000 + p.val < 100000 := by
  have hN : cfg0.N = 10 := N_0
  have := t.isLt; have := p.isLt; omega

/-- The embedding rows' block at point t is rows 10000 t … 10000 t + 9999 of the array. -/
theorem iblk0_0_apply (c : Dev nD) (t : Fin cfg0.N) (p : Fin 10000) (k : Fin 64) :
    (iblk0 V c 0 t : Vec Ideal S10000x64 .f32) (ix2 p k)
      = (V c main_v6 : S100000x64.Idx → EReal) (ix2 (⟨t.val * 10000 + p.val, row_lt t p⟩ : Fin 100000) k) := by
  obtain ⟨e0, e1, -⟩ := idx_facts t
  unfold iblk0
  rw [View.read_apply]
  show V c main_v6 _ = V c main_v6 _
  congr 1
  funext a
  apply Fin.ext
  match a with
  | ⟨0, _⟩ => show win0_0.index t 0 * 10000 + 1 * p.val = t.val * 10000 + p.val; rw [e0]; omega
  | ⟨1, _⟩ => show win0_0.index t 1 * 64 + 1 * k.val = k.val; rw [e1]; omega

/-- The weight matrix's block at every point is the whole matrix. -/
theorem iblk0_1_apply (c : Dev nD) (t : Fin cfg0.N) (k : Fin 64) (q : Fin 64) :
    (iblk0 V c 1 t : Vec Ideal S64x64 .f32) (ix2 k q) = (V c main_arg4 : S64x64.Idx → EReal) (ix2 k q) := by
  obtain ⟨-, -, e2, e3, -⟩ := idx_facts t
  unfold iblk0
  rw [View.read_apply]
  show V c main_arg4 _ = V c main_arg4 _
  congr 1
  funext a
  apply Fin.ext
  match a with
  | ⟨0, _⟩ => show win0_1.index t 0 * 64 + 1 * k.val = k.val; rw [e2]; omega
  | ⟨1, _⟩ => show win0_1.index t 1 * 64 + 1 * q.val = q.val; rw [e3]; omega

/-- The degree column's block at point t is rows 10000 t … of the column. -/
theorem iblk0_2_apply (c : Dev nD) (t : Fin cfg0.N) (p : Fin 10000) (u : Fin 1) :
    (iblk0 V c 2 t : Vec Ideal S10000x1 .f32) (ix2 p u)
      = (V c main_v17 : S100000x1.Idx → EReal) (ix2 (⟨t.val * 10000 + p.val, row_lt t p⟩ : Fin 100000) u) := by
  obtain ⟨-, -, -, -, e4, e5, -⟩ := idx_facts t
  unfold iblk0
  rw [View.read_apply]
  show V c main_v17 _ = V c main_v17 _
  congr 1
  funext a
  apply Fin.ext
  match a with
  | ⟨0, _⟩ => show win0_2.index t 0 * 10000 + 1 * p.val = t.val * 10000 + p.val; rw [e4]; omega
  | ⟨1, _⟩ => show win0_2.index t 1 * 1 + 1 * u.val = u.val; rw [e5]; omega

/-- A block of the first dense stage computed from blocks of its operands is the block of the whole stage. -/
theorem block_eq (t : Fin cfg0.N) (B0 : Vec Ideal S10000x64 .f32) (B1 : Vec Ideal S64x64 .f32) (B2 : Vec Ideal S10000x1 .f32)
    (X : S100000x64.Idx → EReal) (W : S64x64.Idx → EReal) (col : S100000x1.Idx → EReal)
    (h0 : ∀ (p : Fin 10000) (k : Fin 64), B0 (ix2 p k) = X (ix2 (⟨t.val * 10000 + p.val, row_lt t p⟩ : Fin 100000) k))
    (h1 : ∀ (k q : Fin 64), B1 (ix2 k q) = W (ix2 k q))
    (h2 : ∀ (p : Fin 10000) (u : Fin 1), B2 (ix2 p u) = col (ix2 (⟨t.val * 10000 + p.val, row_lt t p⟩ : Fin 100000) u))
    (j : S10000x64.Idx) (i : S100000x64.Idx) (hi0 : (i 0).val = t.val * 10000 + (j 0).val) (hi1 : (i 1).val = (j 1).val) :
    k0_pay1 B0 B1 B2 j = dense1 X W col i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  obtain rfl : r = ⟨t.val * 10000 + p.val, row_lt t p⟩ := Fin.ext hi0
  obtain rfl : s = q := Fin.ext hi1
  rw [pay0_apply, dense1_ix2]
  unfold dense1At
  rw [h2]
  congr 1
  exact Finset.sum_congr rfl fun k _ => by rw [h0, h1]

/-- What point t writes back is block t of the first dense stage of the arrays the region finds. -/
theorem flushed_eq (c : Dev nD) (t : Fin cfg0.N) :
    (dat0 V c).flushed 3 t = ((cfg0.win 3).blk t).view.read (Elt Ideal) (dense1 (V c main_v6) (V c main_arg4) (V c main_v17)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S10000x1) hz]
  obtain ⟨-, -, -, -, -, -, e6, e7⟩ := idx_facts t
  funext j
  show k0_pay1 (iblk0 V c 0 t) (iblk0 V c 1 t) (iblk0 V c 2 t) j = dense1 (V c main_v6) (V c main_arg4) (V c main_v17) (((cfg0.win 3).blk t).view.emb j)
  refine block_eq t _ _ _ _ _ _ (iblk0_0_apply V c t) (iblk0_1_apply V c t) (iblk0_2_apply V c t) j _ ?_ ?_
  · show win0_3.index t 0 * 10000 + 1 * (j 0).val = t.val * 10000 + (j 0).val; rw [e6]; omega
  · show win0_3.index t 1 * 64 + 1 * (j 1).val = (j 1).val; rw [e7]; omega

/-- An index of the result array is in point t's block iff each coordinate is in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v22).slice (win0_3.rect t)).set ↔ _
  rw [View.set_slice_whole, Rect.mem_set_unit]
  exact Iff.rfl

/-- Every index of the result array is in the block of the point that owns its row. -/
theorem cover (i : S100000x64.Idx) : ∃ t : Fin cfg0.N, (cfg0.win 3).flush t = true ∧ i ∈ ((cfg0.win 3).blk t).view.set := by
  have hN : cfg0.N = 10 := N_0
  have hi0 : (i 0).val < 100000 := (i 0).isLt
  have hi1 : (i 1).val < 64 := (i 1).isLt
  let t : Fin cfg0.N := ⟨(i 0).val / 10000, by rw [hN]; omega⟩
  obtain ⟨-, -, -, -, -, -, e6, e7⟩ := idx_facts t
  have ht : t.val = (i 0).val / 10000 := rfl
  refine ⟨t, flush0_3 t, ?_⟩
  rw [mem_blk]
  intro a
  match a with
  | ⟨0, _⟩ => show win0_3.index t 0 * 10000 ≤ (i 0).val ∧ (i 0).val < win0_3.index t 0 * 10000 + 10000; rw [e6, ht]; omega
  | ⟨1, _⟩ => show win0_3.index t 1 * 64 ≤ (i 1).val ∧ (i 1).val < win0_3.index t 1 * 64 + 64; rw [e7]; omega

/-- The first region's result array: the first dense stage of the arrays the region finds. -/
theorem final (c : Dev nD) : (dat0 V c).arrAt 3 cfg0.N = dense1 (V c main_v6) (V c main_arg4) (V c main_v17) :=
  (dat0 V c).arrAt_eq_of_cover 3 (dense1 (V c main_v6) (V c main_arg4) (V c main_v17)) (fun t _ => flushed_eq V c t) cover

end Cert.KernelIdeal.Region0

end
-- ==== Proof.Region1.lean ====
/-
  The second kernel region's result array as one function of the arrays the region finds.  The grid has ten points;
  point t stages rows 10000 t … 10000 t + 9999 of the aggregated features and of the degree column and the whole padded
  weight matrix and bias row, and writes back rows 10000 t … of the padded result.  The body's value at (p, q) of its
  block is the second dense stage of the staged blocks, so the block written back at point t is block t of the second
  dense stage of the whole arrays, and the ten blocks tile the result array.
-/
import proofs.«157491_j56882546868696_2_alg».proof.Proof.Gen.KernelIdeal.Frame
import proofs.«157491_j56882546868696_2_alg».proof.Proof.Spec
import proofs.«157491_j56882546868696_2_alg».proof.Proof.PayloadAt
import Idealize.ShloMosaic.Lib.Pipeline.Value
import Idealize.ShloMosaic.Lib.Tactic

set_option maxRecDepth 16384

noncomputable section

namespace Cert.KernelIdeal.Region1

open Cert.KernelIdeal Cert.KernelIdeal.Gen Cert.Gcn Cert.KernelIdeal.PayloadAt
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-block access. -/
theorem hz : (![0, 0] : Fin 2 → Nat) = fun _ => 0 := funext fun a => by fin_cases a <;> rfl

/-- The block indices of the five windows at every grid point: the row-blocked windows move with the point, the padded
    weight matrix and bias row stay. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- Row p of block t is a row of the array. -/
theorem row_lt (t : Fin cfg1.N) (p : Fin 10000) : t.val * 10000 + p.val < 100000 := by
  have hN : cfg1.N = 10 := N_1
  have := t.isLt; have := p.isLt; omega

/-- The aggregated features' block at point t is rows 10000 t … 10000 t + 9999 of the array. -/
theorem iblk1_0_apply (c : Dev nD) (t : Fin cfg1.N) (p : Fin 10000) (k : Fin 64) :
    (iblk1 V c 0 t : Vec Ideal S10000x64 .f32) (ix2 p k)
      = (V c main_v32 : S100000x64.Idx → EReal) (ix2 (⟨t.val * 10000 + p.val, row_lt t p⟩ : Fin 100000) k) := by
  obtain ⟨e0, e1, -⟩ := idx_facts t
  unfold iblk1
  rw [View.read_apply]
  show V c main_v32 _ = V c main_v32 _
  congr 1
  funext a
  apply Fin.ext
  match a with
  | ⟨0, _⟩ => show win1_0.index t 0 * 10000 + 1 * p.val = t.val * 10000 + p.val; rw [e0]; omega
  | ⟨1, _⟩ => show win1_0.index t 1 * 64 + 1 * k.val = k.val; rw [e1]; omega

/-- The degree column's block at point t is rows 10000 t … of the column. -/
theorem iblk1_1_apply (c : Dev nD) (t : Fin cfg1.N) (p : Fin 10000) (u : Fin 1) :
    (iblk1 V c 1 t : Vec Ideal S10000x1 .f32) (ix2 p u)
      = (V c main_v21 : S100000x1.Idx → EReal) (ix2 (⟨t.val * 10000 + p.val, row_lt t p⟩ : Fin 100000) u) := by
  obtain ⟨-, -, e2, e3, -⟩ := idx_facts t
  unfold iblk1
  rw [View.read_apply]
  show V c main_v21 _ = V c main_v21 _
  congr 1
  funext a
  apply Fin.ext
  match a with
  | ⟨0, _⟩ => show win1_1.index t 0 * 10000 + 1 * p.val = t.val * 10000 + p.val; rw [e2]; omega
  | ⟨1, _⟩ => show win1_1.index t 1 * 1 + 1 * u.val = u.val; rw [e3]; omega

/-- The padded weight matrix's block at every point is the whole matrix. -/
theorem iblk1_2_apply (c : Dev nD) (t : Fin cfg1.N) (k : Fin 64) (q : Fin 128) :
    (iblk1 V c 2 t : Vec Ideal S64x128 .f32) (ix2 k q) = (V c main_v35 : S64x128.Idx → EReal) (ix2 k q) := by
  obtain ⟨-, -, -, -, e4, e5, -⟩ := idx_facts t
  unfold iblk1
  rw [View.read_apply]
  show V c main_v35 _ = V c main_v35 _
  congr 1
  funext a
  apply Fin.ext
  match a with
  | ⟨0, _⟩ => show win1_2.index t 0 * 64 + 1 * k.val = k.val; rw [e4]; omega
  | ⟨1, _⟩ => show win1_2.index t 1 * 128 + 1 * q.val = q.val; rw [e5]; omega

/-- The padded bias row's block at every point is the whole row. -/
theorem iblk1_3_apply (c : Dev nD) (t : Fin cfg1.N) (u : Fin 1) (q : Fin 128) :
    (iblk1 V c 3 t : Vec Ideal S1x128 .f32) (ix2 u q) = (V c main_v39 : S1x128.Idx → EReal) (ix2 u q) := by
  obtain ⟨-, -, -, -, -, -, e6, e7, -⟩ := idx_facts t
  unfold iblk1
  rw [View.read_apply]
  show V c main_v39 _ = V c main_v39 _
  congr 1
  funext a
  apply Fin.ext
  match a with
  | ⟨0, _⟩ => show win1_3.index t 0 * 1 + 1 * u.val = u.val; rw [e6]; omega
  | ⟨1, _⟩ => show win1_3.index t 1 * 128 + 1 * q.val = q.val; rw [e7]; omega

/-- A block of the second dense stage computed from blocks of its operands is the block of the whole stage. -/
theorem block_eq (t : Fin cfg1.N) (B0 : Vec Ideal S10000x64 .f32) (B1 : Vec Ideal S10000x1 .f32) (B2 : Vec Ideal S64x128 .f32) (B3 : Vec Ideal S1x128 .f32)
    (A : S100000x64.Idx → EReal) (col : S100000x1.Idx → EReal) (Wp : S64x128.Idx → EReal) (bp : S1x128.Idx → EReal)
    (h0 : ∀ (p : Fin 10000) (k : Fin 64), B0 (ix2 p k) = A (ix2 (⟨t.val * 10000 + p.val, row_lt t p⟩ : Fin 100000) k))
    (h1 : ∀ (p : Fin 10000) (u : Fin 1), B1 (ix2 p u) = col (ix2 (⟨t.val * 10000 + p.val, row_lt t p⟩ : Fin 100000) u))
    (h2 : ∀ (k : Fin 64) (q : Fin 128), B2 (ix2 k q) = Wp (ix2 k q))
    (h3 : ∀ (u : Fin 1) (q : Fin 128), B3 (ix2 u q) = bp (ix2 u q))
    (j : S10000x128.Idx) (i : S100000x128.Idx) (hi0 : (i 0).val = t.val * 10000 + (j 0).val) (hi1 : (i 1).val = (j 1).val) :
    k1_pay1 B0 B1 B2 B3 j = dense2 A col Wp bp i := by
  obtain ⟨p, q, rfl⟩ : ∃ (p : Fin 10000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : r = ⟨t.val * 10000 + p.val, row_lt t p⟩ := Fin.ext hi0
  obtain rfl : s = q := Fin.ext hi1
  rw [pay1_apply, dense2_ix2]
  unfold dense2At
  rw [h3, h1]
  congr 1
  exact Finset.sum_congr rfl fun k _ => by rw [h0, h2]

/-- What point t writes back is block t of the second dense stage of the arrays the region finds. -/
theorem flushed_eq (c : Dev nD) (t : Fin cfg1.N) :
    (dat1 V c).flushed 4 t = ((cfg1.win 4).blk t).view.read (Elt Ideal) (dense2 (V c main_v32) (V c main_v21) (V c main_v35) (V c main_v39)) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S64x128) hz, View.ld_unit_zero (S := S1x128) hz]
  obtain ⟨-, -, -, -, -, -, -, -, e8, e9⟩ := idx_facts t
  funext j
  show k1_pay1 (iblk1 V c 0 t) (iblk1 V c 1 t) (iblk1 V c 2 t) (iblk1 V c 3 t) j = dense2 (V c main_v32) (V c main_v21) (V c main_v35) (V c main_v39) (((cfg1.win 4).blk t).view.emb j)
  refine block_eq t _ _ _ _ _ _ _ _ (iblk1_0_apply V c t) (iblk1_1_apply V c t) (iblk1_2_apply V c t) (iblk1_3_apply V c t) j _ ?_ ?_
  · show win1_4.index t 0 * 10000 + 1 * (j 0).val = t.val * 10000 + (j 0).val; rw [e8]; omega
  · show win1_4.index t 1 * 128 + 1 * (j 1).val = (j 1).val; rw [e9]; omega

/-- An index of the result array is in point t's block iff each coordinate is in the block's range. -/
theorem mem_blk (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v40).slice (win1_4.rect t)).set ↔ _
  rw [View.set_slice_whole, Rect.mem_set_unit]
  exact Iff.rfl

/-- Every index of the result array is in the block of the point that owns its row. -/
theorem cover (i : S100000x128.Idx) : ∃ t : Fin cfg1.N, (cfg1.win 4).flush t = true ∧ i ∈ ((cfg1.win 4).blk t).view.set := by
  have hN : cfg1.N = 10 := N_1
  have hi0 : (i 0).val < 100000 := (i 0).isLt
  have hi1 : (i 1).val < 128 := (i 1).isLt
  let t : Fin cfg1.N := ⟨(i 0).val / 10000, by rw [hN]; omega⟩
  obtain ⟨-, -, -, -, -, -, -, -, e8, e9⟩ := idx_facts t
  have ht : t.val = (i 0).val / 10000 := rfl
  refine ⟨t, flush1_4 t, ?_⟩
  rw [mem_blk]
  intro a
  match a with
  | ⟨0, _⟩ => show win1_4.index t 0 * 10000 ≤ (i 0).val ∧ (i 0).val < win1_4.index t 0 * 10000 + 10000; rw [e8, ht]; omega
  | ⟨1, _⟩ => show win1_4.index t 1 * 128 ≤ (i 1).val ∧ (i 1).val < win1_4.index t 1 * 128 + 128; rw [e9]; omega

/-- The second region's result array: the second dense stage of the arrays the region finds. -/
theorem final (c : Dev nD) : (dat1 V c).arrAt 4 cfg1.N = dense2 (V c main_v32) (V c main_v21) (V c main_v35) (V c main_v39) :=
  (dat1 V c).arrAt_eq_of_cover 4 (dense2 (V c main_v32) (V c main_v21) (V c main_v35) (V c main_v39)) (fun t _ => flushed_eq V c t) cover

end Cert.KernelIdeal.Region1

end
-- ==== Proof.KerValue.lean ====
/-
  The kernel program's run with its result as one term of the argument arrays: the logistic finish of column 0 of the
  second dense stage, taken of the sum over incoming edges of the first dense stage of the embedded rows.  The two
  regions' result arrays are the two dense stages of the arrays each region finds, and the host stretches between them
  are read off the fold of the program's segments.
-/
import proofs.«157491_j56882546868696_2_alg».proof.Proof.KerRun
import proofs.«157491_j56882546868696_2_alg».proof.Proof.KerReads
import proofs.«157491_j56882546868696_2_alg».proof.Proof.Region0
import proofs.«157491_j56882546868696_2_alg».proof.Proof.Region1

set_option maxRecDepth 16384

noncomputable section

namespace Cert.KernelIdeal.KerValue

open Cert.KernelIdeal Cert.KernelIdeal.Gen Cert.KernelIdeal.KerTerm Cert.KernelIdeal.KerReads Cert.Gcn
open Idealize.ShloMosaic Idealize.ShloMosaic.TcCoe Idealize.SL.Sem

variable (m : (ℓ : Loc nD τ sig) → Buf (Elt Ideal) ℓ) (ρ : Dev nD → PrngReg)

/-- The kernel program's result as a term of its seven argument arrays. -/
def kval (a0 : (⟨S100000, .i32⟩ : BufTy).Contents (Elt Ideal)) (a1 a2 : (⟨S1000000, .i32⟩ : BufTy).Contents (Elt Ideal))
    (a3 : (⟨S100000x64, .f32⟩ : BufTy).Contents (Elt Ideal)) (a4 : (⟨S64x64, .f32⟩ : BufTy).Contents (Elt Ideal))
    (a5 : (⟨S64x1, .f32⟩ : BufTy).Contents (Elt Ideal)) (a6 : (⟨S1, .f32⟩ : BufTy).Contents (Elt Ideal)) :
    (⟨S100000x1, .f32⟩ : BufTy).Contents (Elt Ideal) :=
  finish (F := Ideal) a1 a2 (col0 (F := Ideal)
    (dense2 (sumIn64 (F := Ideal) a1 a2 (dense1 (embed (F := Ideal) a3 a0) a4 (invDegCol (F := Ideal) a1)))
      (invDegCol (F := Ideal) a2) (w2pad (F := Ideal) a5) (b2pad (F := Ideal) a6)))

/-- The first region's result array in terms of the arguments. -/
theorem region0_val (c : Dev nD) : (dat0 (V1 m ρ) c).arrAt 3 cfg0.N
    = dense1 (embed (F := Ideal) (m ((c.tc : Thread nD τ).loc main_arg3)) (m ((c.tc : Thread nD τ).loc main_arg0)))
        (m ((c.tc : Thread nD τ).loc main_arg4)) (invDegCol (F := Ideal) (m ((c.tc : Thread nD τ).loc main_arg1))) := by
  rw [Region0.final (V1 m ρ) c]
  show dense1 (W1 m ρ c (Proc.devRef .tc main_v6)) (W1 m ρ c (Proc.devRef .tc main_arg4)) (W1 m ρ c (Proc.devRef .tc main_v17)) = _
  rw [W1_v6, W1_arg4, W1_v17]

/-- The second region's result array in terms of the arguments. -/
theorem region1_val (c : Dev nD) : (dat1 (V3 m ρ) c).arrAt 4 cfg1.N
    = dense2 (sumIn64 (F := Ideal) (m ((c.tc : Thread nD τ).loc main_arg1)) (m ((c.tc : Thread nD τ).loc main_arg2))
          ((dat0 (V1 m ρ) c).arrAt 3 cfg0.N))
        (invDegCol (F := Ideal) (m ((c.tc : Thread nD τ).loc main_arg2))) (w2pad (F := Ideal) (m ((c.tc : Thread nD τ).loc main_arg5)))
        (b2pad (F := Ideal) (m ((c.tc : Thread nD τ).loc main_arg6))) := by
  rw [Region1.final (V3 m ρ) c]
  show dense2 (W3 m ρ c (Proc.devRef .tc main_v32)) (W3 m ρ c (Proc.devRef .tc main_v21)) (W3 m ρ c (Proc.devRef .tc main_v35)) (W3 m ρ c (Proc.devRef .tc main_v39)) = _
  rw [W3_v32, W3_v21, W3_v35, W3_v39]

/-- The result buffer's final contents in terms of the arguments. -/
theorem result_val (c : Dev nD) : W5 m ρ c (Proc.devRef .tc main_v57)
    = kval (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  rw [W5_v57, region1_val, region0_val]
  rfl

/-- The run: every weakly fair execution terminates with the result at that term and the arguments unchanged. -/
theorem run : θ_run defs (onTc (τ := τ) (main (F := Ideal))) ⟨m, fun _ => 0, ρ⟩ (fun r => ∀ c : Dev nD,
      r.2.mem ((c.tc : Thread nD τ).loc main_v57)
        = kval (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_val m ρ c), (h c).2⟩) (KerRun.run_named m ρ)

end Cert.KernelIdeal.KerValue

end
-- ==== Proof.RefTerm.lean ====
/-
  The reference program's result as one term of its seven argument arrays, cut into named stages: the embedding rows
  looked up by node id, the two degree counts (a scatter-add of ones over the senders and over the receivers) and their
  inverse square roots laid out as columns, the first dense layer scaled by the senders' column, the sum over incoming
  edges (a gather by sender followed by a scatter-add by receiver), the scaling by the receivers' column, the leaky
  rectifier, the second dense layer with its bias, the second sum over incoming edges, and the logistic function spelt
  as 1 / (1 + exp (-x)).  Each stage is the host operations of the printed program, in its order.
-/
import proofs.«157491_j56882546868696_2_alg».proof.ReferenceIdeal

noncomputable section

namespace Cert.ReferenceIdeal.RefTerm

open Cert.ReferenceIdeal Idealize.ShloMosaic

variable {F : FTy → Type} [FloatOps F] [Facts]
open Facts₀ Facts

/-- Node ids as gather start indices: a negative id is moved up by the table's height, and the ids become a column. -/
def nodeIdx (a0 : (⟨S100000, .i32⟩ : BufTy).Contents (Elt F)) : (⟨S100000x1, .i32⟩ : BufTy).Contents (Elt F) :=
  broadcastInDim S100000x1 ![0] bcast_S100000_S100000x1_0
    (select (cmpi .slt a0 (broadcastInDim S100000 ![] bcast_S_S100000 (constantI S_ 32 0#32)))
      (addi a0 (broadcastInDim S100000 ![] bcast_S_S100000 (constantI S_ 32 100000#32))) a0)

/-- Edge endpoints as gather start indices, likewise. -/
def edgeIdx (a : (⟨S1000000, .i32⟩ : BufTy).Contents (Elt F)) : (⟨S1000000x1, .i32⟩ : BufTy).Contents (Elt F) :=
  broadcastInDim S1000000x1 ![0] bcast_S1000000_S1000000x1_0
    (select (cmpi .slt a (broadcastInDim S1000000 ![] bcast_S_S1000000 (constantI S_ 32 0#32)))
      (addi a (broadcastInDim S1000000 ![] bcast_S_S1000000 (constantI S_ 32 100000#32))) a)

/-- Edge endpoints as scatter indices: a column, unchanged. -/
def edgeCol (a : (⟨S1000000, .i32⟩ : BufTy).Contents (Elt F)) : (⟨S1000000x1, .i32⟩ : BufTy).Contents (Elt F) :=
  broadcastInDim S1000000x1 ![0] bcast_S1000000_S1000000x1_0 a

/-- The embedding rows of the node ids. -/
def embed (a3 : (⟨S100000x64, .f32⟩ : BufTy).Contents (Elt F)) (a0 : (⟨S100000, .i32⟩ : BufTy).Contents (Elt F)) :
    (⟨S100000x64, .f32⟩ : BufTy).Contents (Elt F) :=
  Host.gather gather_S100000x64_S100000x1_S100000x64_1_0_n_n_0_1_164 a3 (nodeIdx a0)

/-- How many edges name each node at the given endpoint, at least one, to the power -1/2. -/
def invDeg (a : (⟨S1000000, .i32⟩ : BufTy).Contents (Elt F)) : (⟨S100000, .f32⟩ : BufTy).Contents (Elt F) :=
  Host.rsqrt (maximumf
    (Host.scatterAdd scatter_S100000_S1000000x1_S1000000_n_0_0_1
      (broadcastInDim S100000 ![] bcast_S_S100000 (constant S_ .f32 0x00000000#32)) (edgeCol a)
      (broadcastInDim S1000000 ![] bcast_S_S1000000 (constant S_ .f32 0x3F800000#32)))
    (broadcastInDim S100000 ![] bcast_S_S100000 (constant S_ .f32 0x3F800000#32)))

/-- That vector as a column laid over the 64 features. -/
def invDegWide (a : (⟨S1000000, .i32⟩ : BufTy).Contents (Elt F)) : (⟨S100000x64, .f32⟩ : BufTy).Contents (Elt F) :=
  broadcastInDim S100000x64 ![0, 1] bcast_S100000x1_S100000x64_0_1
    (broadcastInDim S100000x1 ![0] bcast_S100000_S100000x1_0 (invDeg a))

/-- The first dense layer, each row scaled by its sender-degree factor. -/
def layer1 (a0 : (⟨S100000, .i32⟩ : BufTy).Contents (Elt F)) (a1 : (⟨S1000000, .i32⟩ : BufTy).Contents (Elt F))
    (a3 : (⟨S100000x64, .f32⟩ : BufTy).Contents (Elt F)) (a4 : (⟨S64x64, .f32⟩ : BufTy).Contents (Elt F)) :
    (⟨S100000x64, .f32⟩ : BufTy).Contents (Elt F) :=
  mulf (Host.dotGeneral dot_S100000x64_S64x64_S100000x64_1_0_0_1_n_n none (embed a3 a0) a4) (invDegWide a1)

/-- Every node's sum over its incoming edges of the sender's row (64 features). -/
def sumIn64 (a1 a2 : (⟨S1000000, .i32⟩ : BufTy).Contents (Elt F)) (y : (⟨S100000x64, .f32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant S_ .f32 0x00000000#32)) (edgeCol a2)
    (Host.gather gather_S100000x64_S1000000x1_S1000000x64_1_0_n_n_0_1_164 y (edgeIdx a1))

/-- The leaky rectifier with slope 0.01 (the binary32 word nearest to it). -/
def leaky (z : (⟨S100000x64, .f32⟩ : BufTy).Contents (Elt F)) : (⟨S100000x64, .f32⟩ : BufTy).Contents (Elt F) :=
  select (cmpf .oge z (broadcastInDim S100000x64 ![] bcast_S_S100000x64 (constant S_ .f32 0x00000000#32))) z
    (mulf (broadcastInDim S100000x64 ![] bcast_S_S100000x64 (id (constant S_ .f32 0x3C23D70A#32))) z)

/-- The second dense layer with its bias. -/
def layer2 (h : (⟨S100000x64, .f32⟩ : BufTy).Contents (Elt F)) (a5 : (⟨S64x1, .f32⟩ : BufTy).Contents (Elt F))
    (a6 : (⟨S1, .f32⟩ : BufTy).Contents (Elt F)) : (⟨S100000x1, .f32⟩ : BufTy).Contents (Elt F) :=
  addf (Host.dotGeneral dot_S100000x64_S64x1_S100000x1_1_0_0_1_n_n none h a5)
    (broadcastInDim S100000x1 ![0, 1] bcast_S1x1_S100000x1_0_1 (broadcastInDim S1x1 ![1] bcast_S1_S1x1_1 a6))

/-- Every node's sum over its incoming edges of the sender's value, through the logistic function 1 / (1 + exp (-x)). -/
def finish (a1 a2 : (⟨S1000000, .i32⟩ : BufTy).Contents (Elt F)) (p : (⟨S100000x1, .f32⟩ : BufTy).Contents (Elt F)) :
    (⟨S100000x1, .f32⟩ : BufTy).Contents (Elt F) :=
  Host.divf (broadcastInDim S100000x1 ![] bcast_S_S100000x1 (constant S_ .f32 0x3F800000#32))
    (addf (broadcastInDim S100000x1 ![] bcast_S_S100000x1 (constant S_ .f32 0x3F800000#32))
      (Host.exp (Host.negf
        (Host.scatterAdd scatter_S100000x1_S1000000x1_S1000000x1_1_0_0_1
          (broadcastInDim S100000x1 ![] bcast_S_S100000x1 (constant S_ .f32 0x00000000#32)) (edgeCol a2)
          (Host.gather gather_S100000x1_S1000000x1_S1000000x1_1_0_n_n_0_1_11 p (edgeIdx a1))))))

/-- The reference's result. -/
def out (a0 : (⟨S100000, .i32⟩ : BufTy).Contents (Elt F)) (a1 a2 : (⟨S1000000, .i32⟩ : BufTy).Contents (Elt F))
    (a3 : (⟨S100000x64, .f32⟩ : BufTy).Contents (Elt F)) (a4 : (⟨S64x64, .f32⟩ : BufTy).Contents (Elt F))
    (a5 : (⟨S64x1, .f32⟩ : BufTy).Contents (Elt F)) (a6 : (⟨S1, .f32⟩ : BufTy).Contents (Elt F)) :
    (⟨S100000x1, .f32⟩ : BufTy).Contents (Elt F) :=
  finish a1 a2 (layer2 (leaky (mulf (sumIn64 a1 a2 (layer1 a0 a1 a3 a4)) (invDegWide a2))) a5 a6)

end Cert.ReferenceIdeal.RefTerm

end
-- ==== Proof.RefRun.lean ====
/-
  The run of the reference program.  Its entry function is a straight line of eighty host operations once the two
  functions it calls are read at their call sites: the leaky rectifier's six operations (the zero, its broadcast, the
  comparison with it, the slope converted to its own type, its broadcast, the product) and the one operation of the
  selection it calls in turn, all over the buffers of that one call.  Every weakly fair execution from a memory whose
  counters are zero therefore ends with each buffer at the fold of the eighty operations over the launch contents; read
  at the result buffer the fold is the term `RefTerm.out` of the seven argument arrays, and read at an argument buffer,
  which no operation writes, it is the launch contents.
-/
import proofs.«157491_j56882546868696_2_alg».proof.Proof.RefTerm
import proofs.«157491_j56882546868696_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The entry function's operations in order, the two calls read at their sites: forty-eight operations, then the
    rectifier's six and the selection's one over the call's buffers, then twenty-five more. -/
abbrev ops : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg0 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 100000#32),
    unary main_c_0 main_v2 (broadcastInDim S100000 ![] bcast_S_S100000 : (⟨S_, .i32⟩ : BufTy).Contents (Elt F) → (⟨S100000, .i32⟩ : BufTy).Contents (Elt F)),
    binary main_arg0 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg0 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg3 main_v5 main_v6 ((fun x i => Host.gather gather_S100000x64_S100000x1_S100000x64_1_0_n_n_0_1_164 x i) : (⟨S100000x64, .f32⟩ : BufTy).Contents (Elt F) → (⟨S100000x1, .i32⟩ : BufTy).Contents (Elt F) → (⟨S100000x64, .f32⟩ : BufTy).Contents (Elt F)),
    binary main_v6 main_arg4 main_v7 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst (constant S_ .f32 0x3F800000#32),
    unary main_cst main_v8 (broadcastInDim S1000000 ![] bcast_S_S1000000 : (⟨S_, .f32⟩ : BufTy).Contents (Elt F) → (⟨S1000000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    unary main_arg1 main_v10 (broadcastInDim S1000000x1 ![0] bcast_S1000000_S1000000x1_0 : (⟨S1000000, .i32⟩ : BufTy).Contents (Elt F) → (⟨S1000000x1, .i32⟩ : BufTy).Contents (Elt F)),
    ternary main_v9 main_v10 main_v8 main_v11 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_2 (constant S_ .f32 0x00000000#32),
    unary main_cst_2 main_v12 (broadcastInDim S100000 ![] bcast_S_S100000 : (⟨S_, .f32⟩ : BufTy).Contents (Elt F) → (⟨S100000, .f32⟩ : BufTy).Contents (Elt F)),
    unary main_arg2 main_v13 (broadcastInDim S1000000x1 ![0] bcast_S1000000_S1000000x1_0 : (⟨S1000000, .i32⟩ : BufTy).Contents (Elt F) → (⟨S1000000x1, .i32⟩ : BufTy).Contents (Elt F)),
    ternary main_v12 main_v13 main_v8 main_v14 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_3 (constant S_ .f32 0x3F800000#32),
    unary main_cst_3 main_v15 (broadcastInDim S100000 ![] bcast_S_S100000 : (⟨S_, .f32⟩ : BufTy).Contents (Elt F) → (⟨S100000, .f32⟩ : BufTy).Contents (Elt F)),
    binary main_v11 main_v15 main_v16 (maximumf : (⟨S100000, .f32⟩ : BufTy).Contents (Elt F) → (⟨S100000, .f32⟩ : BufTy).Contents (Elt F) → (⟨S100000, .f32⟩ : BufTy).Contents (Elt F)),
    unary main_v16 main_v17 (Host.rsqrt : (⟨S100000, .f32⟩ : BufTy).Contents (Elt F) → (⟨S100000, .f32⟩ : BufTy).Contents (Elt F)),
    unary main_v17 main_v18 (broadcastInDim S100000x1 ![0] bcast_S100000_S100000x1_0 : (⟨S100000, .f32⟩ : BufTy).Contents (Elt F) → (⟨S100000x1, .f32⟩ : BufTy).Contents (Elt F)),
    unary main_v18 main_v19 (broadcastInDim S100000x64 ![0, 1] bcast_S100000x1_S100000x64_0_1 : (⟨S100000x1, .f32⟩ : BufTy).Contents (Elt F) → (⟨S100000x64, .f32⟩ : BufTy).Contents (Elt F)),
    binary main_v7 main_v19 main_v20 (mulf : (⟨S100000x64, .f32⟩ : BufTy).Contents (Elt F) → (⟨S100000x64, .f32⟩ : BufTy).Contents (Elt F) → (⟨S100000x64, .f32⟩ : BufTy).Contents (Elt F)),
    nullary main_c_4 (constantI S_ 32 0#32),
    unary main_c_4 main_v21 (broadcastInDim S1000000 ![] bcast_S_S1000000 : (⟨S_, .i32⟩ : BufTy).Contents (Elt F) → (⟨S1000000, .i32⟩ : BufTy).Contents (Elt F)),
    binary main_arg1 main_v21 main_v22 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v23 (broadcastInDim S1000000 ![] bcast_S_S1000000 : (⟨S_, .i32⟩ : BufTy).Contents (Elt F) → (⟨S1000000, .i32⟩ : BufTy).Contents (Elt F)),
    binary main_arg1 main_v23 main_v24 (addi : (⟨S1000000, .i32⟩ : BufTy).Contents (Elt F) → (⟨S1000000, .i32⟩ : BufTy).Contents (Elt F) → (⟨S1000000, .i32⟩ : BufTy).Contents (Elt F)),
    ternary main_v22 main_v24 main_arg1 main_v25 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v25 main_v26 (broadcastInDim S1000000x1 ![0] bcast_S1000000_S1000000x1_0 : (⟨S1000000, .i32⟩ : BufTy).Contents (Elt F) → (⟨S1000000x1, .i32⟩ : BufTy).Contents (Elt F)),
    binary main_v20 main_v26 main_v27 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_cst_6 (constant S_ .f32 0x00000000#32),
    unary main_cst_6 main_v28 (broadcastInDim S100000x64 ![] bcast_S_S100000x64 : (⟨S_, .f32⟩ : BufTy).Contents (Elt F) → (⟨S100000x64, .f32⟩ : BufTy).Contents (Elt F)),
    unary main_arg2 main_v29 (broadcastInDim S1000000x1 ![0] bcast_S1000000_S1000000x1_0 : (⟨S1000000, .i32⟩ : BufTy).Contents (Elt F) → (⟨S1000000x1, .i32⟩ : BufTy).Contents (Elt F)),
    ternary main_v28 main_v29 main_v27 main_v30 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_7 (constant S_ .f32 0x3F800000#32),
    unary main_cst_7 main_v31 (broadcastInDim S100000 ![] bcast_S_S100000 : (⟨S_, .f32⟩ : BufTy).Contents (Elt F) → (⟨S100000, .f32⟩ : BufTy).Contents (Elt F)),
    binary main_v14 main_v31 main_v32 (maximumf : (⟨S100000, .f32⟩ : BufTy).Contents (Elt F) → (⟨S100000, .f32⟩ : BufTy).Contents (Elt F) → (⟨S100000, .f32⟩ : BufTy).Contents (Elt F)),
    unary main_v32 main_v33 (Host.rsqrt : (⟨S100000, .f32⟩ : BufTy).Contents (Elt F) → (⟨S100000, .f32⟩ : BufTy).Contents (Elt F)),
    unary main_v33 main_v34 (broadcastInDim S100000x1 ![0] bcast_S100000_S100000x1_0 : (⟨S100000, .f32⟩ : BufTy).Contents (Elt F) → (⟨S100000x1, .f32⟩ : BufTy).Contents (Elt F)),
    unary main_v34 main_v35 (broadcastInDim S100000x64 ![0, 1] bcast_S100000x1_S100000x64_0_1 : (⟨S100000x1, .f32⟩ : BufTy).Contents (Elt F) → (⟨S100000x64, .f32⟩ : BufTy).Contents (Elt F)),
    binary main_v30 main_v35 main_v36 (mulf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3C23D70A#32),
    TRef.nullary main_call0.cst (constant S_ .f32 0x00000000#32),
    TRef.unary main_call0.cst main_call0.v0 (broadcastInDim S100000x64 ![] bcast_S_S100000x64),
    TRef.binary (.of main_v36) main_call0.v0 main_call0.v1 (cmpf .oge),
    TRef.unary (.of main_cst_8) main_call0.v2 id,
    TRef.unary main_call0.v2 main_call0.v3 (broadcastInDim S100000x64 ![] bcast_S_S100000x64),
    TRef.binary main_call0.v3 (.of main_v36) main_call0.v4 mulf,
    TRef.ternary main_call0.v1 (.of main_v36) main_call0.v4 main_call0.call0.v0 select,
    binary main_v37 main_arg5 main_v38 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg6 main_v39 (broadcastInDim S1x1 ![1] bcast_S1_S1x1_1 : (⟨S1, .f32⟩ : BufTy).Contents (Elt F) → (⟨S1x1, .f32⟩ : BufTy).Contents (Elt F)),
    unary main_v39 main_v40 (broadcastInDim S100000x1 ![0, 1] bcast_S1x1_S100000x1_0_1 : (⟨S1x1, .f32⟩ : BufTy).Contents (Elt F) → (⟨S100000x1, .f32⟩ : BufTy).Contents (Elt F)),
    binary main_v38 main_v40 main_v41 (addf : (⟨S100000x1, .f32⟩ : BufTy).Contents (Elt F) → (⟨S100000x1, .f32⟩ : BufTy).Contents (Elt F) → (⟨S100000x1, .f32⟩ : BufTy).Contents (Elt F)),
    nullary main_c_9 (constantI S_ 32 0#32),
    unary main_c_9 main_v42 (broadcastInDim S1000000 ![] bcast_S_S1000000 : (⟨S_, .i32⟩ : BufTy).Contents (Elt F) → (⟨S1000000, .i32⟩ : BufTy).Contents (Elt F)),
    binary main_arg1 main_v42 main_v43 (cmpi .slt : (⟨S1000000, .i32⟩ : BufTy).Contents (Elt F) → (⟨S1000000, .i32⟩ : BufTy).Contents (Elt F) → (⟨S1000000, .i1⟩ : BufTy).Contents (Elt F)),
    nullary main_c_10 (constantI S_ 32 100000#32),
    unary main_c_10 main_v44 (broadcastInDim S1000000 ![] bcast_S_S1000000 : (⟨S_, .i32⟩ : BufTy).Contents (Elt F) → (⟨S1000000, .i32⟩ : BufTy).Contents (Elt F)),
    binary main_arg1 main_v44 main_v45 (addi : (⟨S1000000, .i32⟩ : BufTy).Contents (Elt F) → (⟨S1000000, .i32⟩ : BufTy).Contents (Elt F) → (⟨S1000000, .i32⟩ : BufTy).Contents (Elt F)),
    ternary main_v43 main_v45 main_arg1 main_v46 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v46 main_v47 (broadcastInDim S1000000x1 ![0] bcast_S1000000_S1000000x1_0 : (⟨S1000000, .i32⟩ : BufTy).Contents (Elt F) → (⟨S1000000x1, .i32⟩ : BufTy).Contents (Elt F)),
    binary main_v41 main_v47 main_v48 ((fun x i => Host.gather gather_S100000x1_S1000000x1_S1000000x1_1_0_n_n_0_1_11 x i) : (⟨S100000x1, .f32⟩ : BufTy).Contents (Elt F) → (⟨S1000000x1, .i32⟩ : BufTy).Contents (Elt F) → (⟨S1000000x1, .f32⟩ : BufTy).Contents (Elt F)),
    nullary main_cst_11 (constant S_ .f32 0x00000000#32),
    unary main_cst_11 main_v49 (broadcastInDim S100000x1 ![] bcast_S_S100000x1 : (⟨S_, .f32⟩ : BufTy).Contents (Elt F) → (⟨S100000x1, .f32⟩ : BufTy).Contents (Elt F)),
    unary main_arg2 main_v50 (broadcastInDim S1000000x1 ![0] bcast_S1000000_S1000000x1_0 : (⟨S1000000, .i32⟩ : BufTy).Contents (Elt F) → (⟨S1000000x1, .i32⟩ : BufTy).Contents (Elt F)),
    ternary main_v49 main_v50 main_v48 main_v51 ((fun x i u => Host.scatterAdd scatter_S100000x1_S1000000x1_S1000000x1_1_0_0_1 x i u) : (⟨S100000x1, .f32⟩ : BufTy).Contents (Elt F) → (⟨S1000000x1, .i32⟩ : BufTy).Contents (Elt F) → (⟨S1000000x1, .f32⟩ : BufTy).Contents (Elt F) → (⟨S100000x1, .f32⟩ : BufTy).Contents (Elt F)),
    unary main_v51 main_v52 (Host.negf : (⟨S100000x1, .f32⟩ : BufTy).Contents (Elt F) → (⟨S100000x1, .f32⟩ : BufTy).Contents (Elt F)),
    unary main_v52 main_v53 (Host.exp : (⟨S100000x1, .f32⟩ : BufTy).Contents (Elt F) → (⟨S100000x1, .f32⟩ : BufTy).Contents (Elt F)),
    nullary main_cst_12 (constant S_ .f32 0x3F800000#32),
    unary main_cst_12 main_v54 (broadcastInDim S100000x1 ![] bcast_S_S100000x1 : (⟨S_, .f32⟩ : BufTy).Contents (Elt F) → (⟨S100000x1, .f32⟩ : BufTy).Contents (Elt F)),
    binary main_v54 main_v53 main_v55 (addf : (⟨S100000x1, .f32⟩ : BufTy).Contents (Elt F) → (⟨S100000x1, .f32⟩ : BufTy).Contents (Elt F) → (⟨S100000x1, .f32⟩ : BufTy).Contents (Elt F)),
    nullary main_cst_13 (constant S_ .f32 0x3F800000#32),
    unary main_cst_13 main_v56 (broadcastInDim S100000x1 ![] bcast_S_S100000x1 : (⟨S_, .f32⟩ : BufTy).Contents (Elt F) → (⟨S100000x1, .f32⟩ : BufTy).Contents (Elt F)),
    binary main_v56 main_v55 main_v57 (Host.divf : (⟨S100000x1, .f32⟩ : BufTy).Contents (Elt F) → (⟨S100000x1, .f32⟩ : BufTy).Contents (Elt F) → (⟨S100000x1, .f32⟩ : BufTy).Contents (Elt F)) ]

-- eighty binds re-associated: the rewrite under the chain recurses once per statement
set_option maxRecDepth 4096 in
set_option maxHeartbeats 4000000 in
/-- The entry function is that straight line: its two windows in order, the called functions' bodies at their call
    sites and the call's record at its fields, make one chain of steps once sequencing is re-associated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., unary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    binary_bufs_sub .., unary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., unary_bufs_sub .., nullary_bufs_sub .., unary_bufs_sub .., binary_bufs_sub .., nullary_bufs_sub ..,
    unary_bufs_sub .., binary_bufs_sub ..⟩

attribute [local irreducible] Host.gather Host.scatterAdd Host.rsqrt Host.exp Host.divf Host.negf in
set_option maxRecDepth 16384 in
set_option maxHeartbeats 4000000 in
/-- The fold read at the result buffer is the reference's term: each operation's result decides whether the buffer
    read is the one it writes, and a typed reference's transport is the identity at a literal reference, so both
    sides are the same nest of the host operations over the argument contents.  The gathers, scatter-adds, the quotient,
    the negation and the transcendental operations stay folded: the equation never looks inside them. -/
theorem out_eq (V : Valuation τ sig (Elt F)) :
    after ops V (main_v57 : DevRef τ sig)
      = RefTerm.out (V (main_arg0 : DevRef τ sig))
        (V (main_arg1 : DevRef τ sig))
        (V (main_arg2 : DevRef τ sig))
        (V (main_arg3 : DevRef τ sig))
        (V (main_arg4 : DevRef τ sig))
        (V (main_arg5 : DevRef τ sig))
        (V (main_arg6 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

/-- On the one device, for any float values, from any memory whose counters are zero: every weakly fair execution of
    the entry function terminates with the result buffer at the reference's term of the arguments' launch contents
    and the seven arguments unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v57).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.LibScatterSet.lean ====
import Idealize.ShloMosaic.Lib.ValueIdx

/-!
# A scatter whose body returns the update, read at an index

A scatter visits the update's indices one after another; at each one it overwrites the result's element at the landing
index of that update index by the body applied to the old element and the update's element. When the body returns the
update's element, every update index lands inside the operand, and the landing map is injective, then no two updates
meet at one element, and the result at the landing index of update index `j` is the update's element at `j`, whatever the
operand holds.

The special case at the end: a `[K, 1]` update written into column 0 of a `[K, N]` operand — update element `(k, 0)` lands
at operand element `(k, 0)`, so the result at `(k, 0)` is the update at `(k, 0)`.
-/

namespace Cert.ScatterSet
open Idealize.ShloMosaic Idealize.ShloMosaic.ValueIdx

/-! ## A fold of overwrites at the images of an injective map -/

section Fold
variable {ι κ α : Type}

/-- Fold over a list `L` of positions, each step overwriting the function's value at `e n` by `v n`, with `e` injective:
    at `e j` for a position `j` that is NOT in the list the starting function's value is left as it was, because no
    `e n` with `n` in the list equals `e j`. -/
theorem foldl_set_of_not_mem [DecidableEq ι] (e : κ → ι) (he : Function.Injective e) (v : κ → α)
    (L : List κ) (r : ι → α) (j : κ) (hj : j ∉ L) :
    L.foldl (fun r n i' => if i' = e n then v n else r i') r (e j) = r (e j) := by
  induction L generalizing r with
  | nil => rfl
  | cons a L ih =>
    rw [List.foldl_cons, ih _ (fun h => hj (List.mem_cons_of_mem _ h))]
    have hne : e j ≠ e a := fun h => hj (he h ▸ List.mem_cons_self)
    exact if_neg hne

/-- The same fold at `e j` for a position `j` that IS in the list: the value is `v j`. Only a step at `j` itself writes at
    `e j` (injectivity), every such step writes `v j`, and the last of them is followed by steps that leave `e j` alone —
    so the list may repeat positions. By induction on the list with the starting function general: if `j` occurs in the
    tail the tail's fold decides; if not, `j` is the head, the head's step writes `v j` and the tail leaves it. -/
theorem foldl_set_of_mem [DecidableEq ι] (e : κ → ι) (he : Function.Injective e) (v : κ → α)
    (L : List κ) (r : ι → α) (j : κ) (hj : j ∈ L) :
    L.foldl (fun r n i' => if i' = e n then v n else r i') r (e j) = v j := by
  induction L generalizing r with
  | nil => exact absurd hj List.not_mem_nil
  | cons a L ih =>
    rw [List.foldl_cons]
    by_cases hL : j ∈ L
    · exact ih _ hL
    · obtain rfl : j = a := (List.mem_cons.1 hj).resolve_right hL
      rw [foldl_set_of_not_mem e he v L _ j hL]
      exact if_pos rfl

end Fold

/-! ## The scatter with a total injective landing map -/

section Scatter
variable {α : Type}

/-- A scatter whose body returns the update's element, at dimension numbers and scatter indices for which EVERY update
    index `j` lands inside the operand, at `e j`, with `e` injective: the result at `e j` is the update's element at `j`,
    whatever the operand `x` holds. The scatter is the fold of the overwrites `e (p n) ↦ upd (p n)` over all row-major
    positions `n` of the update, `p` the bijection from positions to update indices; `e ∘ p` is injective and the list of
    all positions contains the position of `j`. -/
theorem scatter_set_apply_of_injective {s si u : Shape} {w : Nat} (d : ScatterDims s si u)
    (x : s.Idx → α) (idx : IVec si w) (upd : u.Idx → α) (e : u.Idx → s.Idx) (he : Function.Injective e)
    (hland : ∀ j, d.resultIdx? j idx = some (e j)) (j : u.Idx) :
    Host.scatter d (fun _ b => b) x idx upd (e j) = upd j := by
  have hfold : Host.scatter d (fun _ b => b) x idx upd =
      (List.finRange u.numel).foldl
        (fun r n i' => if i' = e (u.rowMajor.symm n) then upd (u.rowMajor.symm n) else r i') x := by
    unfold Host.scatter
    congr 1
    funext r n
    rw [hland]
  rw [hfold]
  have h := foldl_set_of_mem (fun n => e (u.rowMajor.symm n))
    (fun a b hab => u.rowMajor.symm.injective (he hab)) (fun n => upd (u.rowMajor.symm n))
    (List.finRange u.numel) x (u.rowMajor j) (List.mem_finRange _)
  simp only [Equiv.symm_apply_apply] at h
  exact h

end Scatter

/-! ## A `[K, 1]` update set into column 0 of a `[K, N]` operand

Dimension numbers: update window axes `[0, 1]`, no inserted window axis, ONE scatter index whose single component is the
start on operand axis 1 (the index vector's axis is axis 0 of the `[1]`-shaped scatter indices). With the start column
`0`, update element `(k, c)` (`c < 1`, so `c = 0`) lands at `(0 + k, 0 + c) = (k, 0)`. -/

section Pad

/-- Those dimension numbers for an operand `[K, N]`, scatter indices `[1]` and updates `[K, 1]`; their conditions `wf` are
    decided on a program's literal shapes. -/
abbrev padDims (K N : Nat) (wf : ScatterDims.WF ⟨2, ![K, N]⟩ ⟨1, ![1]⟩ ⟨2, ![K, 1]⟩ [0, 1] [] [1] 0) :
    ScatterDims ⟨2, ![K, N]⟩ ⟨1, ![1]⟩ ⟨2, ![K, 1]⟩ where
  updateWindowDims := [0, 1]
  insertedWindowDims := []
  scatterDimsToOperandDims := [1]
  indexVectorDim := 0
  wf := wf

/-- The landing index of update index `j = (k, c)`: the operand index `(k, 0)`. -/
abbrev padLand {K N : Nat} (hN : 0 < N) (j : (⟨2, ![K, 1]⟩ : Shape).Idx) : (⟨2, ![K, N]⟩ : Shape).Idx :=
  ix2 (⟨(j 0).val, idx2_lt0 j⟩ : Fin K) (⟨0, hN⟩ : Fin N)

/-- `(k, c) ↦ (k, 0)` is injective on the update's indices: the second coordinate `c` ranges over one value. -/
theorem padLand_injective {K N : Nat} (hN : 0 < N) : Function.Injective (padLand (K := K) hN) := by
  intro j j' h
  obtain ⟨k, c, rfl⟩ : ∃ (k : Fin K) (c : Fin 1), j = ix2 k c := ⟨_, _, eq_ix2 j⟩
  obtain ⟨k', c', rfl⟩ : ∃ (k' : Fin K) (c' : Fin 1), j' = ix2 k' c' := ⟨_, _, eq_ix2 j'⟩
  have hk : k = k' := Fin.ext (congrArg Fin.val (congrFun h 0))
  have hc : c = c' := Subsingleton.elim _ _
  rw [hk, hc]

/-- The window's start is `0` on both operand axes when the scatter indices are `0` everywhere: on the axis the index
    vector names it is the signed reading of the word `0`, on the other it is `0` by definition. -/
theorem pad_start {K N : Nat} (wf : ScatterDims.WF ⟨2, ![K, N]⟩ ⟨1, ![1]⟩ ⟨2, ![K, 1]⟩ [0, 1] [] [1] 0)
    (idx : IVec ⟨1, ![1]⟩ 32) (hidx : ∀ i, idx i = 0#32) (j : (⟨2, ![K, 1]⟩ : Shape).Idx)
    (a : Fin 2) : (padDims K N wf).start j idx a = 0 := by
  unfold ScatterDims.start
  split
  · rw [hidx]; rfl
  · rfl

/-- Every update index `j = (k, c)` lands inside the operand, at `(k, 0)`: on axis 0 start `0` plus window coordinate `k < K`,
    on axis 1 start `0` plus window coordinate `c = 0 < N`. -/
theorem pad_resultIdx? {K N : Nat} (hN : 0 < N)
    (wf : ScatterDims.WF ⟨2, ![K, N]⟩ ⟨1, ![1]⟩ ⟨2, ![K, 1]⟩ [0, 1] [] [1] 0)
    (idx : IVec ⟨1, ![1]⟩ 32) (hidx : ∀ i, idx i = 0#32) (j : (⟨2, ![K, 1]⟩ : Shape).Idx) :
    (padDims K N wf).resultIdx? j idx = some (padLand hN j) := by
  obtain ⟨k, c, rfl⟩ : ∃ (k : Fin K) (c : Fin 1), j = ix2 k c := ⟨_, _, eq_ix2 j⟩
  have hc : c.val = 0 := by omega
  have hw0 : (padDims K N wf).window (ix2 k c) 0 = k.val := rfl
  have hw1 : (padDims K N wf).window (ix2 k c) 1 = c.val := rfl
  have hs := pad_start wf idx hidx (ix2 k c)
  have h : ∀ a, 0 ≤ (padDims K N wf).start (ix2 k c) idx a + (padDims K N wf).window (ix2 k c) a ∧
      (padDims K N wf).start (ix2 k c) idx a + (padDims K N wf).window (ix2 k c) a
        < (⟨2, ![K, N]⟩ : Shape).size a := by
    intro a
    rw [hs a]
    match a with
    | ⟨0, _⟩ =>
      show 0 ≤ (0 : Int) + ((padDims K N wf).window (ix2 k c) 0 : Nat) ∧
        (0 : Int) + ((padDims K N wf).window (ix2 k c) 0 : Nat) < (K : Nat)
      rw [hw0]; have := k.isLt; omega
    | ⟨1, _⟩ =>
      show 0 ≤ (0 : Int) + ((padDims K N wf).window (ix2 k c) 1 : Nat) ∧
        (0 : Int) + ((padDims K N wf).window (ix2 k c) 1 : Nat) < (N : Nat)
      rw [hw1, hc]; omega
  unfold ScatterDims.resultIdx?
  rw [dif_pos h]
  congr 1
  funext a
  refine Fin.ext ?_
  match a with
  | ⟨0, _⟩ =>
    show ((padDims K N wf).start (ix2 k c) idx 0 + ((padDims K N wf).window (ix2 k c) 0 : Nat)).toNat = k.val
    rw [hs 0, hw0]; omega
  | ⟨1, _⟩ =>
    show ((padDims K N wf).start (ix2 k c) idx 1 + ((padDims K N wf).window (ix2 k c) 1 : Nat)).toNat = 0
    rw [hs 1, hw1, hc]; rfl

/-- THE SCATTER READ AT `(k, 0)`: a `[K, 1]` update set at start column `0` into a `[K, N]` operand (`0 < N`) holds, at
    row `k` of column `0`, the update's element at `(k, 0)` — whatever the operand holds. -/
theorem scatter_set_col0_apply {α : Type} {K N : Nat} (hN : 0 < N)
    (wf : ScatterDims.WF ⟨2, ![K, N]⟩ ⟨1, ![1]⟩ ⟨2, ![K, 1]⟩ [0, 1] [] [1] 0)
    (x : (⟨2, ![K, N]⟩ : Shape).Idx → α) (idx : IVec ⟨1, ![1]⟩ 32) (hidx : ∀ i, idx i = 0#32)
    (upd : (⟨2, ![K, 1]⟩ : Shape).Idx → α) (k : Fin K) :
    Host.scatter (padDims K N wf) (fun _ b => b) x idx upd (ix2 k (⟨0, hN⟩ : Fin N)) = upd (ix2 k (0 : Fin 1)) :=
  scatter_set_apply_of_injective (padDims K N wf) x idx upd (padLand hN) (padLand_injective hN)
    (pad_resultIdx? hN wf idx hidx) (ix2 k (0 : Fin 1))

end Pad

end Cert.ScatterSet
-- ==== Proof.RefDense.lean ====
/-
  The reference's two dense stages read at an index, over the extended reals. The first dense layer is the first dense
  stage of the embedded rows, the weight matrix and the senders' inverse-square-root degrees laid out as a column. The
  second dense layer of the leaky rectifier of rows scaled by the receivers' factors, read at row p of its one column, is
  the sum over k of lk (A[p,k] * d[p]) * W[k,0], plus the bias.
-/
import proofs.«157491_j56882546868696_2_alg».proof.Proof.RefTerm
import proofs.«157491_j56882546868696_2_alg».proof.Proof.Gen.ReferenceIdeal
import proofs.«157491_j56882546868696_2_alg».proof.Proof.Spec
import proofs.«157491_j56882546868696_2_alg».proof.Proof.LibDenseRows

noncomputable section

namespace Cert.ReferenceIdeal.RefDense

open Cert.ReferenceIdeal Cert.ReferenceIdeal.RefTerm Idealize.ShloMosaic Idealize.ShloMosaic.ValueIdx Cert.Gcn
open Cert.DenseRows
open scoped BigOperators
open Facts₀ Facts

/-- A vector laid over the columns of a 64-wide array, at (p, q): the vector's entry of row p. -/
theorem wide_apply (d : FVec Ideal S100000 .f32)
    (h1 : S100000.BroadcastsInDim S100000x1 (![0] : Fin 1 → Fin S100000x1.rank))
    (h2 : S100000x1.BroadcastsInDim S100000x64 (![0, 1] : Fin 2 → Fin S100000x64.rank)) (p : Fin 100000) (q : Fin 64) :
    broadcastInDim S100000x64 ![0, 1] h2 (broadcastInDim S100000x1 ![0] h1 d) (ix2 p q) = d (ix1 p) :=
  (broadcastInDim_a1_ab_apply _ h2 p q).trans (broadcastInDim_a_a1_apply d h1 p 0)

/-- The first dense layer over any rows X, weights W and vector d, at (p, q): the first dense stage with d as a column. -/
theorem layer1_core (X : FVec Ideal S100000x64 .f32) (W : FVec Ideal S64x64 .f32) (d : FVec Ideal S100000 .f32)
    (p : Fin 100000) (q : Fin 64) :
    mulf (Host.dotGeneral dot_S100000x64_S64x64_S100000x64_1_0_0_1_n_n none X W)
      (broadcastInDim S100000x64 ![0, 1] bcast_S100000x1_S100000x64_0_1
        (broadcastInDim S100000x1 ![0] bcast_S100000_S100000x1_0 d)) (ix2 p q) = dense1At X W (colOf d) p q := by
  unfold dense1At
  refine (mulf_apply _ _ _).trans ?_
  refine congrArg₂ (· * ·) ?_ ?_
  · exact dotGeneral_plain_apply dot_S100000x64_S64x64_S100000x64_1_0_0_1_n_n rfl rfl rfl rfl
      (fun _ _ => rfl) (fun _ _ => rfl) X W p q
  · exact wide_apply d _ _ p q

/-- The reference's first dense layer is the first dense stage of the embedded rows. -/
theorem layer1_eq (a0 : (⟨S100000, .i32⟩ : BufTy).Contents (Elt Ideal)) (a1 : (⟨S1000000, .i32⟩ : BufTy).Contents (Elt Ideal))
    (a3 : (⟨S100000x64, .f32⟩ : BufTy).Contents (Elt Ideal)) (a4 : (⟨S64x64, .f32⟩ : BufTy).Contents (Elt Ideal)) :
    layer1 (F := Ideal) a0 a1 a3 a4 = dense1 (embed (F := Ideal) a3 a0) a4 (colOf (invDeg (F := Ideal) a1)) := by
  funext i
  obtain ⟨p, q, rfl⟩ : ∃ (p : Fin 100000) (q : Fin 64), i = ix2 p q := ⟨i 0, i 1, eq_ix2 i⟩
  unfold layer1 invDegWide
  exact layer1_core (embed (F := Ideal) a3 a0) a4 (invDeg (F := Ideal) a1) p q

/-- The reference's leaky rectifier at an index: the leaky rectifier of the entry there (the reference multiplies the slope
    by the entry, the specification the entry by the slope). -/
theorem leaky_apply (z : FVec Ideal S100000x64 .f32) (i : S100000x64.Idx) : leaky (F := Ideal) z i = lk (z i) := by
  unfold leaky lk
  refine (select_apply _ _ _ i).trans ?_
  refine congrArg₂ (Scalar.select · (z i) ·) ?_ ?_
  · refine (cmpf_apply _ _ _ i).trans ?_
    exact congrArg (FloatOps.cmpf (F := Ideal) (φ := .f32) .oge (z i) ·) (broadcastInDim_scalar_apply _ _ i)
  · refine (mulf_apply _ _ i).trans ?_
    refine (congrArg (· * z i) (broadcastInDim_scalar_apply _ _ i)).trans ?_
    exact mul_comm _ _

/-- The second dense layer over any rows A and vector d, at row p of its one column. -/
theorem layer2_core (A : FVec Ideal S100000x64 .f32) (d : FVec Ideal S100000 .f32) (a5 : FVec Ideal S64x1 .f32)
    (a6 : FVec Ideal S1 .f32) (p : Fin 100000) :
    layer2 (F := Ideal) (leaky (F := Ideal) (mulf (F := Ideal) (s := S100000x64) (φ := .f32) A
        (broadcastInDim S100000x64 ![0, 1] bcast_S100000x1_S100000x64_0_1
          (broadcastInDim S100000x1 ![0] bcast_S100000_S100000x1_0 d)))) a5 a6 (ix2 p (0 : Fin 1))
      = (∑ k : Fin 64, lk (A (ix2 p k) * d (ix1 p)) * a5 (ix2 k (0 : Fin 1))) + a6 (ix1 (0 : Fin 1)) := by
  unfold layer2
  refine (addf_apply _ _ _).trans ?_
  refine congrArg₂ (· + ·) ?_ ?_
  · refine (dotGeneral_plain_apply dot_S100000x64_S64x1_S100000x1_1_0_0_1_n_n rfl rfl rfl rfl
      (fun _ _ => rfl) (fun _ _ => rfl) _ a5 p (0 : Fin 1)).trans ?_
    refine Finset.sum_congr rfl fun k _ => ?_
    refine congrArg (· * a5 (ix2 k (0 : Fin 1))) ?_
    refine (leaky_apply _ (ix2 p k)).trans (congrArg lk ?_)
    refine (mulf_apply _ _ _).trans ?_
    exact congrArg (A (ix2 p k) * ·) (wide_apply d _ _ p k)
  · exact rowBias_inDim_apply a6 _ _ p (0 : Fin 1)

/-- The reference's second dense layer after the scaling and the leaky rectifier, at row p of its one column. -/
theorem layer2_eq (A : (⟨S100000x64, .f32⟩ : BufTy).Contents (Elt Ideal)) (a2 : (⟨S1000000, .i32⟩ : BufTy).Contents (Elt Ideal))
    (a5 : (⟨S64x1, .f32⟩ : BufTy).Contents (Elt Ideal)) (a6 : (⟨S1, .f32⟩ : BufTy).Contents (Elt Ideal)) (p : Fin 100000) :
    layer2 (F := Ideal) (leaky (F := Ideal) (mulf (F := Ideal) (s := S100000x64) (φ := .f32) A (invDegWide (F := Ideal) a2))) a5 a6 (ix2 p (0 : Fin 1))
      = (∑ k : Fin 64, lk (A (ix2 p k) * invDeg (F := Ideal) a2 (ix1 p)) * a5 (ix2 k (0 : Fin 1))) + a6 (ix1 (0 : Fin 1)) := by
  unfold invDegWide
  exact layer2_core A (invDeg (F := Ideal) a2) a5 a6 p

end Cert.ReferenceIdeal.RefDense

end
-- ==== Proof.Bridge.lean ====
/-
  The kernel program's value is the reference's, as functions of the seven argument arrays over the extended reals.
  The host stages the two programs share (the embedding lookup, the degree factors, the sums over incoming edges, the
  logistic finish) are the same functions.  The first kernel region's array is the first dense stage, which is the
  reference's first dense layer scaled by the senders' column (a reshape of a vector and the vector laid out as a column
  by a broadcast are one array).  Column 0 of the second region's padded array is the reference's second dense layer:
  column 0 of the padded weight matrix is the weight column, entry 0 of the padded bias row is the bias, and the leaky
  rectifier multiplies by the slope on either side (multiplication of extended reals commutes).
-/
import proofs.«157491_j56882546868696_2_alg».proof.Proof.Gen.KernelIdeal
import proofs.«157491_j56882546868696_2_alg».proof.Proof.Gen.ReferenceIdeal
import proofs.«157491_j56882546868696_2_alg».proof.Proof.KerTerm
import proofs.«157491_j56882546868696_2_alg».proof.Proof.RefTerm
import proofs.«157491_j56882546868696_2_alg».proof.Proof.Spec
import proofs.«157491_j56882546868696_2_alg».proof.Proof.LibScatterSet
import proofs.«157491_j56882546868696_2_alg».proof.Proof.LibColumnLayout
import proofs.«157491_j56882546868696_2_alg».proof.Proof.LibDenseRows
import proofs.«157491_j56882546868696_2_alg».proof.Proof.RefDense
import Idealize.ShloMosaic.Lib.Pipeline.Value

noncomputable section

namespace Cert.Bridge

open Idealize.ShloMosaic Idealize.ShloMosaic.ValueIdx Cert.Gcn
open Cert.KernelIdeal.Gen Cert.ReferenceIdeal.Gen
open scoped BigOperators

abbrev I5 := (⟨Cert.ReferenceIdeal.S100000, .i32⟩ : BufTy).Contents (Elt Ideal)
abbrev I6 := (⟨Cert.ReferenceIdeal.S1000000, .i32⟩ : BufTy).Contents (Elt Ideal)
abbrev A64 := (⟨Cert.ReferenceIdeal.S100000x64, .f32⟩ : BufTy).Contents (Elt Ideal)
abbrev A1 := (⟨Cert.ReferenceIdeal.S100000x1, .f32⟩ : BufTy).Contents (Elt Ideal)

/-! The host stages the two programs share are the same functions. -/
theorem embed_eq (a3 : A64) (a0 : I5) : Cert.KernelIdeal.KerTerm.embed (F := Ideal) a3 a0 = Cert.ReferenceIdeal.RefTerm.embed (F := Ideal) a3 a0 := rfl
theorem invDeg_eq (a : I6) : Cert.KernelIdeal.KerTerm.invDeg (F := Ideal) a = Cert.ReferenceIdeal.RefTerm.invDeg (F := Ideal) a := rfl
theorem sumIn64_eq (a1 a2 : I6) (y : A64) : Cert.KernelIdeal.KerTerm.sumIn64 (F := Ideal) a1 a2 y = Cert.ReferenceIdeal.RefTerm.sumIn64 (F := Ideal) a1 a2 y := rfl
theorem finish_eq (a1 a2 : I6) (p : A1) : Cert.KernelIdeal.KerTerm.finish (F := Ideal) a1 a2 p = Cert.ReferenceIdeal.RefTerm.finish (F := Ideal) a1 a2 p := rfl

/-- The kernel's degree column (a reshape of the vector) is the vector laid out as a column. -/
theorem invDegCol_eq (a : I6) : Cert.KernelIdeal.KerTerm.invDegCol (F := Ideal) a = colOf (Cert.ReferenceIdeal.RefTerm.invDeg (F := Ideal) a) := by
  funext i
  obtain ⟨p, u, rfl⟩ : ∃ (p : Fin 100000) (u : Fin 1), i = ix2 p u := ⟨i 0, i 1, eq_ix2 i⟩
  unfold Cert.KernelIdeal.KerTerm.invDegCol
  rw [invDeg_eq]
  exact Cert.ColumnLayout.shapeCast_a_a1_apply _ _ p u

abbrev W2 := (⟨Cert.ReferenceIdeal.S64x1, .f32⟩ : BufTy).Contents (Elt Ideal)
abbrev B2 := (⟨Cert.ReferenceIdeal.S1, .f32⟩ : BufTy).Contents (Elt Ideal)
abbrev W1 := (⟨Cert.ReferenceIdeal.S64x64, .f32⟩ : BufTy).Contents (Elt Ideal)

/-- Column 0 of the padded weight matrix is the weight column. -/
theorem w2pad_apply (a5 : W2) (k : Fin 64) :
    Cert.KernelIdeal.KerTerm.w2pad (F := Ideal) a5 (ix2 k (0 : Fin 128)) = a5 (ix2 k (0 : Fin 1)) := by
  unfold Cert.KernelIdeal.KerTerm.w2pad
  exact Cert.ScatterSet.scatter_set_col0_apply (by decide) (by decide) _ _ (fun _ => rfl) a5 k

/-- Entry 0 of the padded bias row is the bias. -/
theorem b2pad_apply (a6 : B2) :
    Cert.KernelIdeal.KerTerm.b2pad (F := Ideal) a6 (ix2 (0 : Fin 1) (0 : Fin 128)) = a6 (ix1 (0 : Fin 1)) := by
  unfold Cert.KernelIdeal.KerTerm.b2pad
  refine (Cert.ScatterSet.scatter_set_col0_apply (by decide) (by decide) _ _ (fun _ => rfl) _ (0 : Fin 1)).trans ?_
  exact Cert.ColumnLayout.shapeCast_a_a1_apply _ _ (0 : Fin 1) (0 : Fin 1)

/-- Column 0 of the padded second dense stage is the reference's second dense layer of the rectified scaled rows. -/
theorem col0_dense2_eq (A : A64) (a2 : I6) (a5 : W2) (a6 : B2) :
    Cert.KernelIdeal.KerTerm.col0 (F := Ideal)
        (dense2 A (colOf (Cert.ReferenceIdeal.RefTerm.invDeg (F := Ideal) a2)) (Cert.KernelIdeal.KerTerm.w2pad (F := Ideal) a5)
          (Cert.KernelIdeal.KerTerm.b2pad (F := Ideal) a6))
      = Cert.ReferenceIdeal.RefTerm.layer2 (F := Ideal) (Cert.ReferenceIdeal.RefTerm.leaky (F := Ideal)
          (mulf (F := Ideal) (s := Cert.ReferenceIdeal.S100000x64) (φ := .f32) A (Cert.ReferenceIdeal.RefTerm.invDegWide (F := Ideal) a2))) a5 a6 := by
  funext i
  obtain ⟨p, u, rfl⟩ : ∃ (p : Fin 100000) (u : Fin 1), i = ix2 p u := ⟨i 0, i 1, eq_ix2 i⟩
  obtain rfl : u = 0 := Subsingleton.elim _ _
  rw [Cert.ReferenceIdeal.RefDense.layer2_eq]
  unfold Cert.KernelIdeal.KerTerm.col0
  rw [extractStridedSlice_apply ![0, 0] _ _ (ix2 p (0 : Fin 1)) (ix2 p (0 : Fin 128)) (fun a => by
    match a with
    | ⟨0, _⟩ => show p.val = 0 + p.val; omega
    | ⟨1, _⟩ => rfl)]
  rw [dense2_ix2]
  unfold dense2At
  rw [colOf_ix2, b2pad_apply]
  congr 1
  exact Finset.sum_congr rfl fun k _ => by rw [w2pad_apply]

/-- The kernel program's value is the reference's. -/
theorem result_eq (a0 : I5) (a1 a2 : I6) (a3 : A64) (a4 : W1) (a5 : W2) (a6 : B2) :
    Cert.KernelIdeal.KerTerm.finish (F := Ideal) a1 a2 (Cert.KernelIdeal.KerTerm.col0 (F := Ideal)
      (dense2 (Cert.KernelIdeal.KerTerm.sumIn64 (F := Ideal) a1 a2
          (dense1 (Cert.KernelIdeal.KerTerm.embed (F := Ideal) a3 a0) a4 (Cert.KernelIdeal.KerTerm.invDegCol (F := Ideal) a1)))
        (Cert.KernelIdeal.KerTerm.invDegCol (F := Ideal) a2) (Cert.KernelIdeal.KerTerm.w2pad (F := Ideal) a5)
        (Cert.KernelIdeal.KerTerm.b2pad (F := Ideal) a6)))
      = Cert.ReferenceIdeal.RefTerm.out (F := Ideal) a0 a1 a2 a3 a4 a5 a6 := by
  unfold Cert.ReferenceIdeal.RefTerm.out
  rw [embed_eq, invDegCol_eq, invDegCol_eq, sumIn64_eq, finish_eq, ← Cert.ReferenceIdeal.RefDense.layer1_eq, col0_dense2_eq]

end Cert.Bridge

end
-- ==== Proof.lean ====
/-
  A two-layer graph network: node features looked up from an embedding table, a dense layer scaled by the senders'
  degree factors, a sum over incoming edges, a scaling by the receivers' degree factors, a leaky rectifier, a second dense
  layer with bias, a second sum over incoming edges and the logistic function.  The kernel program computes the two dense
  layers in two row-blocked kernel regions (the second into a result padded to 128 columns, of which column 0 is kept)
  and everything else on the host; the reference computes all of it on the host.  Over the extended reals the two
  programs are the same function of their arguments, operation by operation: the kernel's matrix products into a zero
  accumulator are the host's contractions, a block of a dense stage computed from blocks of its operands is the block of
  the whole stage, column 0 of the padded weight matrix and bias is the weight column and the bias, and the rectifier's
  product with the slope commutes.  No finiteness of the inputs is used.  The three frames are the generated frames of
  the two kernel programs and the reference's run with its result dropped; the idealization rewrote nothing.
-/
import proofs.«157491_j56882546868696_2_alg».proof.Defs
import proofs.«157491_j56882546868696_2_alg».proof.Proof.Gen.Kernel
import proofs.«157491_j56882546868696_2_alg».proof.Proof.Gen.Kernel.Skeleton
import proofs.«157491_j56882546868696_2_alg».proof.Proof.Gen.Kernel.Launch
import proofs.«157491_j56882546868696_2_alg».proof.Proof.Gen.Kernel.Points
import proofs.«157491_j56882546868696_2_alg».proof.Proof.Gen.Kernel.Frame
import proofs.«157491_j56882546868696_2_alg».proof.Proof.Gen.KernelIdeal
import proofs.«157491_j56882546868696_2_alg».proof.Proof.Gen.KernelIdeal.Skeleton
import proofs.«157491_j56882546868696_2_alg».proof.Proof.Gen.KernelIdeal.Launch
import proofs.«157491_j56882546868696_2_alg».proof.Proof.Gen.KernelIdeal.Points
import proofs.«157491_j56882546868696_2_alg».proof.Proof.Gen.KernelIdeal.Frame
import proofs.«157491_j56882546868696_2_alg».proof.Proof.Gen.ReferenceIdeal
import proofs.«157491_j56882546868696_2_alg».proof.Proof.Gen.Pre_finite_inputs
import proofs.«157491_j56882546868696_2_alg».proof.Proof.KerValue
import proofs.«157491_j56882546868696_2_alg».proof.Proof.RefRun
import proofs.«157491_j56882546868696_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the arguments both programs end with the same result array: the kernel program's value
    is the reference's as a function of the arguments. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6⟩ := hagree c
  rw [h0, h1, h2, h3, h4, h5, h6]
  exact (Cert.Bridge.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
